-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S50000x256 : Shape := ⟨2, ![50000, 256]⟩
abbrev S2x800000 : Shape := ⟨2, ![2, 800000]⟩
abbrev S512x128 : Shape := ⟨2, ![512, 128]⟩
abbrev S128 : Shape := ⟨1, ![128]⟩
abbrev S256x128 : Shape := ⟨2, ![256, 128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg5 : FVec F S256x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x512 .f32) (main_arg1 : FVec F S50000x256 .f32) (main_arg2 : IVec S2x800000 32) (main_arg3 : FVec F S512x128 .f32) (main_arg4 : FVec F S128 .f32) (main_arg5 : FVec F S256x128 .f32) (main_arg6 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x512 : Shape := ⟨2, ![50000, 512]⟩
abbrev S50000x256 : Shape := ⟨2, ![50000, 256]⟩
abbrev S2x800000 : Shape := ⟨2, ![2, 800000]⟩
abbrev S512x128 : Shape := ⟨2, ![512, 128]⟩
abbrev S128 : Shape := ⟨1, ![128]⟩
abbrev S256x128 : Shape := ⟨2, ![256, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S2000x512 : Shape := ⟨2, ![2000, 512]⟩
abbrev S2000x256 : Shape := ⟨2, ![2000, 256]⟩
abbrev S2000x1 : Shape := ⟨2, ![2000, 1]⟩
abbrev S2000x128 : Shape := ⟨2, ![2000, 128]⟩
abbrev S850000x256 : Shape := ⟨2, ![850000, 256]⟩
abbrev S50000x128 : Shape := ⟨2, ![50000, 128]⟩
abbrev S1x128 : Shape := ⟨2, ![1, 128]⟩
abbrev S2000 : Shape := ⟨1, ![2000]⟩

abbrev nBuf : Space → Nat
  | .hbm => 53
  | .vmem => 18
  | .smem => 0
  | _ => 0

abbrev bufTy : (tb : Table) → Fin (tcTables nBuf tb) → BufTy
  | .hbm, ⟨0, _⟩ => ⟨S50000x512, .f32⟩
  | .hbm, ⟨1, _⟩ => ⟨S50000x256, .f32⟩
  | .hbm, ⟨2, _⟩ => ⟨S2x800000, .i32⟩
  | .hbm, ⟨3, _⟩ => ⟨S512x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S50000, .f32⟩
  | .hbm, ⟨16, _⟩ => ⟨S_, .i32⟩
  | .hbm, ⟨17, _⟩ => ⟨S850000, .i32⟩
  | .hbm, ⟨18, _⟩ => ⟨S850000, .i1⟩
  | .hbm, ⟨19, _⟩ => ⟨S_, .i32⟩
  | .hbm, ⟨20, _⟩ => ⟨S850000, .i32⟩
  | .hbm, ⟨21, _⟩ => ⟨S850000, .i32⟩
  | .hbm, ⟨22, _⟩ => ⟨S850000, .i32⟩
  | .hbm, ⟨23, _⟩ => ⟨S850000x1, .i32⟩
  | .hbm, ⟨24, _⟩ => ⟨S_, .f32⟩
  | .hbm, ⟨25, _⟩ => ⟨S850000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .i1⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S512x128, .bf16⟩
  | .hbm, ⟨37, _⟩ => ⟨S256x128, .bf16⟩
  | .hbm, ⟨38, _⟩ => ⟨S50000x256, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000x256, .f32⟩
  | .hbm, ⟨48, _⟩ => ⟨S_, .f32⟩
  | .hbm, ⟨49, _⟩ => ⟨S50000x256, .f32⟩
  | .hbm, ⟨50, _⟩ => ⟨S850000x1, .i32⟩
  | .hbm, ⟨51, _⟩ => ⟨S50000x256, .f32⟩
  | .hbm, ⟨52, _⟩ => ⟨S50000x128, .f32⟩
  | .local _ .vmem, ⟨0, _⟩ => ⟨S2000x512, .f32⟩
  | .local _ .vmem, ⟨1, _⟩ => ⟨S2000x512, .f32⟩
  | .local _ .vmem, ⟨2, _⟩ => ⟨S2000x256, .f32⟩
  | .local _ .vmem, ⟨3, _⟩ => ⟨S2000x256, .f32⟩
  | .local _ .vmem, ⟨4, _⟩ => ⟨S512x128, .bf16⟩
  | .local _ .vmem, ⟨5, _⟩ => ⟨S256x128, .bf16⟩
  | .local _ .vmem, ⟨6, _⟩ => ⟨S2000x1, .f32⟩
  | .local _ .vmem, ⟨7, _⟩ => ⟨S2000x1, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x1, .f32⟩
  | .local _ .vmem, ⟨13, _⟩ => ⟨S2000x1, .f32⟩
  | .local _ .vmem, ⟨14, _⟩ => ⟨S128, .f32⟩
  | .local _ .vmem, ⟨15, _⟩ => ⟨S128, .f32⟩
  | .local _ .vmem, ⟨16, _⟩ => ⟨S2000x128, .f32⟩
  | .local _ .vmem, ⟨17, _⟩ => ⟨S2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  bitsLt_bf16_f32 : FTy.bits .bf16 < FTy.bits .f32
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x512_S2000x512_0_0 : ∀ a, (![0, 0] : Fin 2 → Nat) a + S2000x512.size a ≤ S2000x512.size a
  h_S2000x512 : 0 < S2000x512.numel
  inb_S2000x256_S2000x256_0_0 : ∀ a, (![0, 0] : Fin 2 → Nat) a + S2000x256.size a ≤ S2000x256.size a
  h_S2000x256 : 0 < S2000x256.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S2000x1_S2000x128 : S2000x1.Broadcasts S2000x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2000x256_S2000x128_0_0 : ∀ a, (![0, 0] : Fin 2 → Nat) a + S2000x128.size a ≤ S2000x256.size a
  h_S2000x128 : 0 < S2000x128.numel
  inb_S2000x256_S2000x128_0_128 : ∀ a, (![0, 128] : Fin 2 → Nat) a + S2000x128.size a ≤ S2000x256.size a
  bcast_S_S50000x256 : S_.BroadcastsInDim S50000x256 (![] : Fin 0 → Fin S50000x256.rank)
  shapeCasts_S2000x128_S2000x128 : S2000x128.ShapeCasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  reduces_S2000x128_S2000 : S2000x128.Reduces [1] S2000
  shapeCasts_S2000_S2000x1 : S2000.ShapeCasts S2000x1
  inb_S2000x128_S2000x128_0_0 : ∀ a, (![0, 0] : Fin 2 → Nat) a + S2000x128.size a ≤ S2000x128.size a
  scatter_S50000_S850000x1_S850000_n_0_0_1_wf : ScatterDims.WF S50000 S850000x1 S850000 [] [0] [0] 1
  dot_S2000x512_S512x128_S2000x128_1_0_0_1_n_n_wf : DotDims.WF S2000x512 S512x128 S2000x128 [1] [0] [0] [1] [] []
  dot_S2000x256_S256x128_S2000x128_1_0_0_1_n_n_wf : DotDims.WF S2000x256 S256x128 S2000x128 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .bf16 = 32 ∨ (Rect.block (s := S512x128) S512x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S50000x1.size a
  hwx0_4 : ∀ i : grid0.Coords, EltTy.bits .f32 = 32 ∨ (Rect.block (s := S50000x1) S2000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v23) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v33) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x512 : Shape := ⟨2, ![50000, 512]⟩
abbrev S50000x256 : Shape := ⟨2, ![50000, 256]⟩
abbrev S2x800000 : Shape := ⟨2, ![2, 800000]⟩
abbrev S512x128 : Shape := ⟨2, ![512, 128]⟩
abbrev S128 : Shape := ⟨1, ![128]⟩
abbrev S256x128 : Shape := ⟨2, ![256, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x128 : Shape := ⟨2, ![50000, 128]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x1 : Shape := ⟨2, ![50000, 1]⟩

abbrev nBuf : Space → Nat
  | .hbm => 156
  | .vmem => 0
  | .smem => 0
  | _ => 0

abbrev hbmTy0_0 (i : Nat) : BufTy := match i % 128 with
  | 0 => ⟨S50000x512, .f32⟩
  | 1 => ⟨S50000x256, .f32⟩
  | 2 => ⟨S2x800000, .i32⟩
  | 3 => ⟨S512x128, .f32⟩
  | 4 => ⟨S128, .f32⟩
  | 5 => ⟨S256x128, .f32⟩
  | 6 => ⟨S128, .f32⟩
  | 7 => ⟨S50000, .i32⟩
  | 8 => ⟨S1x800000, .i32⟩
  | 9 => ⟨S800000, .i32⟩
  | 10 => ⟨S850000, .i32⟩
  | 11 => ⟨S1x800000, .i32⟩
  | 12 => ⟨S800000, .i32⟩
  | 13 => ⟨S850000, .i32⟩
  | 14 => ⟨S50000x128, .f32⟩
  | 15 => ⟨S_, .f32⟩
  | 16 => ⟨S50000, .f32⟩
  | 17 => ⟨S_, .i32⟩
  | 18 => ⟨S850000, .i32⟩
  | 19 => ⟨S850000, .i1⟩
  | 20 => ⟨S_, .i32⟩
  | 21 => ⟨S850000, .i32⟩
  | 22 => ⟨S850000, .i32⟩
  | 23 => ⟨S850000, .i32⟩
  | 24 => ⟨S850000x1, .i32⟩
  | 25 => ⟨S_, .f32⟩
  | 26 => ⟨S850000, .f32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000x128, .f32⟩
  | 64 => ⟨S850000x1, .f32⟩
  | 65 => ⟨S850000x128, .f32⟩
  | 66 => ⟨S850000x128, .f32⟩
  | 67 => ⟨S_, .f32⟩
  | 68 => ⟨S50000x128, .f32⟩
  | 69 => ⟨S850000x1, .i32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S50000x128, .f32⟩
  | 78 => ⟨S_, .f32⟩
  | 79 => ⟨S50000, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S_, .f32⟩
  | 89 => ⟨S850000, .f32⟩
  | 90 => ⟨S50000, .f32⟩
  | 91 => ⟨S_, .f32⟩
  | 92 => ⟨S50000, .f32⟩
  | 93 => ⟨S50000, .i1⟩
  | 94 => ⟨S50000, .f32⟩
  | 95 => ⟨S_, .f32⟩
  | 96 => ⟨S_, .f32⟩
  | 97 => ⟨S50000, .f32⟩
  | 98 => ⟨S50000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000, .f32⟩
  | 117 => ⟨S850000, .f32⟩
  | 118 => ⟨S_, .i32⟩
  | 119 => ⟨S850000, .i32⟩
  | 120 => ⟨S850000, .i1⟩
  | 121 => ⟨S_, .i32⟩
  | 122 => ⟨S850000, .i32⟩
  | 123 => ⟨S850000, .i32⟩
  | 124 => ⟨S850000, .i32⟩
  | 125 => ⟨S850000x1, .i32⟩
  | 126 => ⟨S850000x128, .f32⟩
  | 127 => ⟨S850000x1, .f32⟩
  | _ => ⟨S50000x512, .f32⟩

abbrev hbmTy0_1 (i : Nat) : BufTy := match i % 128 with
  | 0 => ⟨S850000x128, .f32⟩
  | 1 => ⟨S850000x128, .f32⟩
  | 2 => ⟨S_, .f32⟩
  | 3 => ⟨S50000x128, .f32⟩
  | 4 => ⟨S850000x1, .i32⟩
  | 5 => ⟨S50000x128, .f32⟩
  | 6 => ⟨S1x128, .f32⟩
  | 7 => ⟨S50000x128, .f32⟩
  | 8 => ⟨S50000x128, .f32⟩
  | 9 => ⟨S_, .f32⟩
  | 10 => ⟨S50000x128, .f32⟩
  | 11 => ⟨S50000x128, .f32⟩
  | 12 => ⟨S50000x128, .f32⟩
  | 13 => ⟨S_, .f32⟩
  | 14 => ⟨S50000, .f32⟩
  | 15 => ⟨S_, .f32⟩
  | 16 => ⟨S50000, .f32⟩
  | 17 => ⟨S50000, .f32⟩
  | 18 => ⟨S50000x1, .f32⟩
  | 19 => ⟨S50000x128, .f32⟩
  | 20 => ⟨S50000x128, .f32⟩
  | 21 => ⟨S50000x128, .f32⟩
  | 22 => ⟨S_, .f32⟩
  | 23 => ⟨S50000, .f32⟩
  | 24 => ⟨S50000x1, .f32⟩
  | 25 => ⟨S50000x1, .f32⟩
  | 26 => ⟨S50000x128, .f32⟩
  | 27 => ⟨S50000x128, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_c_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_call1_cst : Ref sig .tc := ⟨.hbm, 74, rfl⟩
abbrev main_call1_v0 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_c_12 : Ref sig .tc := ⟨.hbm, 80, rfl⟩
abbrev main_v55 : Ref sig .tc := ⟨.hbm, 81, rfl⟩
abbrev main_v56 : Ref sig .tc := ⟨.hbm, 82, rfl⟩
abbrev main_c_13 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_14 : Ref sig .tc := ⟨.hbm, 88, rfl⟩
abbrev main_v61 : Ref sig .tc := ⟨.hbm, 89, rfl⟩
abbrev main_v62 : Ref sig .tc := ⟨.hbm, 90, rfl⟩
abbrev main_cst_15 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_16 : Ref sig .tc := ⟨.hbm, 95, rfl⟩
abbrev main_call2_v0 : Ref sig .tc := ⟨.hbm, 96, rfl⟩
abbrev main_call2_v1 : Ref sig .tc := ⟨.hbm, 97, rfl⟩
abbrev main_v66 : Ref sig .tc := ⟨.hbm, 98, rfl⟩
abbrev main_c_17 : Ref sig .tc := ⟨.hbm, 99, rfl⟩
abbrev main_v67 : Ref sig .tc := ⟨.hbm, 100, rfl⟩
abbrev main_v68 : Ref sig .tc := ⟨.hbm, 101, rfl⟩
abbrev main_c_18 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c_19 : Ref sig .tc := ⟨.hbm, 108, rfl⟩
abbrev main_v74 : Ref sig .tc := ⟨.hbm, 109, rfl⟩
abbrev main_v75 : Ref sig .tc := ⟨.hbm, 110, rfl⟩
abbrev main_c_20 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_c_21 : Ref sig .tc := ⟨.hbm, 118, rfl⟩
abbrev main_v82 : Ref sig .tc := ⟨.hbm, 119, rfl⟩
abbrev main_v83 : Ref sig .tc := ⟨.hbm, 120, rfl⟩
abbrev main_c_22 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_23 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_call3_cst : Ref sig .tc := ⟨.hbm, 137, rfl⟩
abbrev main_call3_v0 : Ref sig .tc := ⟨.hbm, 138, rfl⟩
abbrev main_v98 : Ref sig .tc := ⟨.hbm, 139, rfl⟩
abbrev main_v99 : Ref sig .tc := ⟨.hbm, 140, rfl⟩
abbrev main_call4_cst : Ref sig .tc := ⟨.hbm, 141, rfl⟩
abbrev main_call4_v0 : Ref sig .tc := ⟨.hbm, 142, rfl⟩
abbrev main_call4_cst_0 : Ref sig .tc := ⟨.hbm, 143, rfl⟩
abbrev main_call4_v1 : Ref sig .tc := ⟨.hbm, 144, rfl⟩
abbrev main_call4_v2 : Ref sig .tc := ⟨.hbm, 145, rfl⟩
abbrev main_call4_v3 : Ref sig .tc := ⟨.hbm, 146, rfl⟩
abbrev main_call4_v4 : Ref sig .tc := ⟨.hbm, 147, rfl⟩
abbrev main_call4_v5 : Ref sig .tc := ⟨.hbm, 148, rfl⟩
abbrev main_call4_v6 : Ref sig .tc := ⟨.hbm, 149, rfl⟩
abbrev main_call4_cst_1 : Ref sig .tc := ⟨.hbm, 150, rfl⟩
abbrev main_call4_v7 : Ref sig .tc := ⟨.hbm, 151, rfl⟩
abbrev main_call4_v8 : Ref sig .tc := ⟨.hbm, 152, rfl⟩
abbrev main_call4_v9 : Ref sig .tc := ⟨.hbm, 153, rfl⟩
abbrev main_call4_v10 : Ref sig .tc := ⟨.hbm, 154, rfl⟩
abbrev main_v100 : Ref sig .tc := ⟨.hbm, 155, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  dot_S50000x512_S512x128_S50000x128_1_0_0_1_n_n_wf : DotDims.WF S50000x512 S512x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x256_S256x128_S50000x128_1_0_0_1_n_n_wf : DotDims.WF S50000x256 S256x128 S50000x128 [1] [0] [0] [1] [] []

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Region0Value.lean ====
/-
  Region 0 of the idealized kernel, read as a value.

  Each of the 25 grid points takes 2000 rows of the two feature arrays, multiplies them by the two weight matrices and
  scales every row by that node's factor d (a 2000 x 1 column): the 2000 x 256 block it writes back holds, in columns
  0..127, (x1 W1)[r, q] * d[r] and, in columns 128..255, (x2 W2)[r, q - 128] * d[r].  A change of float format is the
  identity on the extended reals, and a matrix product into a zero accumulator is the plain sum over the contracted
  axis.  The 25 blocks tile the 50000 x 256 result, so the whole array is ONE function of the five arrays the region
  reads: `scaledProj`.
-/
import proofs.«130880_j36335423324414_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat)

/-! ## Small layout facts -/

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two matrix products at an index -/

theorem lhsA_0 (i : S2000x128.Idx) (q : dot_S2000x512_S512x128_S2000x128_1_0_0_1_n_n.contr.Idx) : (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem lhsA_1 (i : S2000x128.Idx) (q : dot_S2000x512_S512x128_S2000x128_1_0_0_1_n_n.contr.Idx) : (dot_S2000x512_S512x128_S2000x128_1_0_0_1_n_n.lhsIdx i q 1).val = (q ⟨0, by decide⟩).val :=
  dot_S2000x512_S512x128_S2000x128_1_0_0_1_n_n.lhsIdx_val_of_single rfl i q
theorem rhsA_0 (i : S2000x128.Idx) (q : dot_S2000x512_S512x128_S2000x128_1_0_0_1_n_n.contr.Idx) : (dot_S2000x512_S512x128_S2000x128_1_0_0_1_n_n.rhsIdx i q 0).val = (q ⟨0, by decide⟩).val :=
  dot_S2000x512_S512x128_S2000x128_1_0_0_1_n_n.rhsIdx_val_of_single rfl i q
theorem rhsA_1 (i : S2000x128.Idx) (q : dot_S2000x512_S512x128_S2000x128_1_0_0_1_n_n.contr.Idx) : (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- A block's matrix product into the zero accumulator, read at `(p, q)`: the sum over the contracted axis. -/
theorem matmulA_apply {φ₁ φ₂ : FTy} (a : FVec Ideal S2000x512 φ₁) (b : FVec Ideal S512x128 φ₂) (p : Fin 2000) (q : Fin 128) :
    matmul dot_S2000x512_S512x128_S2000x128_1_0_0_1_n_n none a b (constant S2000x128 .f32 0x00000000#32) (ix2 p q) = ∑ k : Fin 512, a (ix2 p k) * b (ix2 k q) := by
  simp only [matmul]
  rw [Ideal.matmul_constant_zero_apply, ← Equiv.sum_comp (contrEquiv1 dot_S2000x512_S512x128_S2000x128_1_0_0_1_n_n 512 rfl rfl).symm]
  refine Finset.sum_congr rfl fun k _ => ?_
  have hk := contrEquiv1_symm_val dot_S2000x512_S512x128_S2000x128_1_0_0_1_n_n 512 rfl rfl k
  have el : dot_S2000x512_S512x128_S2000x128_1_0_0_1_n_n.lhsIdx (ix2 p q) ((contrEquiv1 dot_S2000x512_S512x128_S2000x128_1_0_0_1_n_n 512 rfl rfl).symm k) = ix2 p k := funext fun ax => Fin.ext (by
    match ax with
    | ⟨0, _⟩ => exact lhsA_0 _ _
    | ⟨1, _⟩ => exact (lhsA_1 _ _).trans hk)
  have er : dot_S2000x512_S512x128_S2000x128_1_0_0_1_n_n.rhsIdx (ix2 p q) ((contrEquiv1 dot_S2000x512_S512x128_S2000x128_1_0_0_1_n_n 512 rfl rfl).symm k) = ix2 k q := funext fun ax => Fin.ext (by
    match ax with
    | ⟨0, _⟩ => exact (rhsA_0 _ _).trans hk
    | ⟨1, _⟩ => exact rhsA_1 _ _)
  rw [el, er]

theorem lhsB_0 (i : S2000x128.Idx) (q : dot_S2000x256_S256x128_S2000x128_1_0_0_1_n_n.contr.Idx) : (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhsB_1 (i : S2000x128.Idx) (q : dot_S2000x256_S256x128_S2000x128_1_0_0_1_n_n.contr.Idx) : (dot_S2000x256_S256x128_S2000x128_1_0_0_1_n_n.lhsIdx i q 1).val = (q ⟨0, by decide⟩).val :=
  dot_S2000x256_S256x128_S2000x128_1_0_0_1_n_n.lhsIdx_val_of_single rfl i q
theorem rhsB_0 (i : S2000x128.Idx) (q : dot_S2000x256_S256x128_S2000x128_1_0_0_1_n_n.contr.Idx) : (dot_S2000x256_S256x128_S2000x128_1_0_0_1_n_n.rhsIdx i q 0).val = (q ⟨0, by decide⟩).val :=
  dot_S2000x256_S256x128_S2000x128_1_0_0_1_n_n.rhsIdx_val_of_single rfl i q
theorem rhsB_1 (i : S2000x128.Idx) (q : dot_S2000x256_S256x128_S2000x128_1_0_0_1_n_n.contr.Idx) : (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- A block's matrix product into the zero accumulator, read at `(p, q)`: the sum over the contracted axis. -/
theorem matmulB_apply {φ₁ φ₂ : FTy} (a : FVec Ideal S2000x256 φ₁) (b : FVec Ideal S256x128 φ₂) (p : Fin 2000) (q : Fin 128) :
    matmul dot_S2000x256_S256x128_S2000x128_1_0_0_1_n_n none a b (constant S2000x128 .f32 0x00000000#32) (ix2 p q) = ∑ k : Fin 256, a (ix2 p k) * b (ix2 k q) := by
  simp only [matmul]
  rw [Ideal.matmul_constant_zero_apply, ← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q) ((contrEquiv1 dot_S2000x256_S256x128_S2000x128_1_0_0_1_n_n 256 rfl rfl).symm k) = ix2 p k := funext fun ax => Fin.ext (by
    match ax with
    | ⟨0, _⟩ => exact lhsB_0 _ _
    | ⟨1, _⟩ => exact (lhsB_1 _ _).trans hk)
  have er : dot_S2000x256_S256x128_S2000x128_1_0_0_1_n_n.rhsIdx (ix2 p q) ((contrEquiv1 dot_S2000x256_S256x128_S2000x128_1_0_0_1_n_n 256 rfl rfl).symm k) = ix2 k q := funext fun ax => Fin.ext (by
    match ax with
    | ⟨0, _⟩ => exact (rhsB_0 _ _).trans hk
    | ⟨1, _⟩ => exact rhsB_1 _ _)
  rw [el, er]

/-! ## The two payloads at an index -/

/-- Columns 0..127 of a block: row `p` of the first product, scaled by the row's factor. -/
theorem pay2_apply (v0 : Vec Ideal S2000x1 .f32) (v2 : Vec Ideal S2000x512 .f32) (v6 : Vec Ideal S512x128 .bf16)
    (p : Fin 2000) (q : Fin 128) :
    k0_pay2 v0 v2 v6 (ix2 p q) = (∑ k : Fin 512, v2 (ix2 p k) * v6 (ix2 k q)) * v0 (ix2 p (0 : Fin 1)) := by
  unfold k0_pay2 k0_pay1
  show matmul (F := Ideal) dot_S2000x512_S512x128_S2000x128_1_0_0_1_n_n none (truncf (F := Ideal) .bf16 v2 bitsLt_bf16_f32) (shapeCast S512x128 v6 shapeCasts_S512x128_S512x128) (constant (F := Ideal) S2000x128 .f32 0x00000000#32) (ix2 p q)
      * broadcastTo S2000x128 (shapeCast S2000x1 v0 shapeCasts_S2000x1_S2000x1) broadcasts_S2000x1_S2000x128 (ix2 p q) = _
  rw [shapeCast_self, shapeCast_self, broadcastTo_a1_ab_apply, matmulA_apply]
  rfl

/-- Columns 128..255 of a block: row `p` of the second product, scaled by the row's factor. -/
theorem pay3_apply (v0 : Vec Ideal S2000x1 .f32) (v4 : Vec Ideal S2000x256 .f32) (v11 : Vec Ideal S256x128 .bf16)
    (p : Fin 2000) (q : Fin 128) :
    k0_pay3 v0 v4 v11 (ix2 p q) = (∑ k : Fin 256, v4 (ix2 p k) * v11 (ix2 k q)) * v0 (ix2 p (0 : Fin 1)) := by
  unfold k0_pay3 k0_pay1
  show matmul (F := Ideal) dot_S2000x256_S256x128_S2000x128_1_0_0_1_n_n none (truncf (F := Ideal) .bf16 v4 bitsLt_bf16_f32) (shapeCast S256x128 v11 shapeCasts_S256x128_S256x128) (constant (F := Ideal) S2000x128 .f32 0x00000000#32) (ix2 p q)
      * broadcastTo S2000x128 (shapeCast S2000x1 v0 shapeCasts_S2000x1_S2000x1) broadcasts_S2000x1_S2000x128 (ix2 p q) = _
  rw [shapeCast_self, shapeCast_self, broadcastTo_a1_ab_apply, matmulB_apply]
  rfl

/-! ## A block of the result as one function of the five blocks it reads -/

/-- Row `p`, column `c` of a 2000 x 256 block: the first product scaled in columns 0..127, the second in 128..255. -/
def blockAt (x0 : Vec Ideal S2000x512 .f32) (x1 : Vec Ideal S2000x256 .f32) (x2 : Vec Ideal S512x128 .bf16)
    (x3 : Vec Ideal S256x128 .bf16) (x4 : Vec Ideal S2000x1 .f32) (p : Fin 2000) (c : Fin 256) : EReal :=
  if h : c.val < 128 then
    (∑ k : Fin 512, x0 (ix2 p k) * x2 (ix2 k (⟨c.val, h⟩ : Fin 128))) * x4 (ix2 p (0 : Fin 1))
  else
    (∑ k : Fin 256, x1 (ix2 p k) * x3 (ix2 k (⟨c.val - 128, by have := c.isLt; omega⟩ : Fin 128))) * x4 (ix2 p (0 : Fin 1))

/-- The same as a function of the block's index. -/
def blockFn (x0 : Vec Ideal S2000x512 .f32) (x1 : Vec Ideal S2000x256 .f32) (x2 : Vec Ideal S512x128 .bf16)
    (x3 : Vec Ideal S256x128 .bf16) (x4 : Vec Ideal S2000x1 .f32) : S2000x256.Idx → EReal := fun y =>
  blockAt x0 x1 x2 x3 x4 ⟨(y 0).val, idx2_lt0 y⟩ ⟨(y 1).val, idx2_lt1 y⟩

section
variable (x0 : Vec Ideal S2000x512 .f32) (x1 : Vec Ideal S2000x256 .f32) (x2 : Vec Ideal S512x128 .bf16)
    (x3 : Vec Ideal S256x128 .bf16) (x4 : Vec Ideal S2000x1 .f32)

theorem blockAt_lo (p : Fin 2000) (q : Fin 128) (c : Fin 256) (hc : c.val = q.val) :
    blockAt x0 x1 x2 x3 x4 p c = (∑ k : Fin 512, x0 (ix2 p k) * x2 (ix2 k q)) * x4 (ix2 p (0 : Fin 1)) := by
  have h : c.val < 128 := by have := q.isLt; omega
  have e : (⟨c.val, h⟩ : Fin 128) = q := Fin.ext hc
  unfold blockAt
  rw [dif_pos h, e]

theorem blockAt_hi (p : Fin 2000) (q : Fin 128) (c : Fin 256) (hc : c.val = 128 + q.val) :
    blockAt x0 x1 x2 x3 x4 p c = (∑ k : Fin 256, x1 (ix2 p k) * x3 (ix2 k q)) * x4 (ix2 p (0 : Fin 1)) := by
  have h : ¬ c.val < 128 := by omega
  have e : (⟨c.val - 128, by have := c.isLt; omega⟩ : Fin 128) = q := Fin.ext (by show c.val - 128 = q.val; omega)
  unfold blockAt
  rw [dif_neg h, e]

theorem blockFn_lo (y : S2000x256.Idx) (p : Fin 2000) (q : Fin 128) (h0 : (y 0).val = p.val) (h1 : (y 1).val = q.val) :
    blockFn x0 x1 x2 x3 x4 y = (∑ k : Fin 512, x0 (ix2 p k) * x2 (ix2 k q)) * x4 (ix2 p (0 : Fin 1)) := by
  have hp : (⟨(y 0).val, idx2_lt0 y⟩ : Fin 2000) = p := Fin.ext h0
  show blockAt x0 x1 x2 x3 x4 ⟨(y 0).val, idx2_lt0 y⟩ ⟨(y 1).val, idx2_lt1 y⟩ = _
  rw [hp]; exact blockAt_lo x0 x1 x2 x3 x4 p q _ h1

theorem blockFn_hi (y : S2000x256.Idx) (p : Fin 2000) (q : Fin 128) (h0 : (y 0).val = p.val) (h1 : (y 1).val = 128 + q.val) :
    blockFn x0 x1 x2 x3 x4 y = (∑ k : Fin 256, x1 (ix2 p k) * x3 (ix2 k q)) * x4 (ix2 p (0 : Fin 1)) := by
  have hp : (⟨(y 0).val, idx2_lt0 y⟩ : Fin 2000) = p := Fin.ext h0
  show blockAt x0 x1 x2 x3 x4 ⟨(y 0).val, idx2_lt0 y⟩ ⟨(y 1).val, idx2_lt1 y⟩ = _
  rw [hp]; exact blockAt_hi x0 x1 x2 x3 x4 p q _ h1

theorem hz : (![0, 0] : Fin 2 → Nat) = fun _ => 0 := funext fun a => by fin_cases a <;> rfl

/-- The two stores of the body — columns 128..255 last, columns 0..127 first — leave exactly `blockFn`. -/
theorem out0_5_eq : out0_5 x0 x1 x2 x3 x4 = blockFn x0 x1 x2 x3 x4 := by
  funext y
  unfold out0_5
  simp only [View.ld_unit_zero (S := S2000x1) hz, View.ld_unit_zero (S := S2000x512) hz, View.ld_unit_zero (S := S2000x256) hz,
    View.ld_unit_zero (S := S512x128) hz, View.ld_unit_zero (S := S256x128) hz]
  refine View.canon_apply_of_pieces (Val := Elt Ideal) (show S2000x256.Idx → Elt Ideal .f32 from blockFn x0 x1 x2 x3 x4) _ ?_ y (cover0_5 _ _ y)
  intro pc hpc x
  simp only [List.mem_cons, List.not_mem_nil, or_false] at hpc
  rcases hpc with rfl | rfl
  · obtain ⟨p, q, rfl⟩ : ∃ (p : Fin 2000) (q : Fin 128), x = ix2 p q := ⟨x 0, x 1, eq_ix2 x⟩
    show k0_pay3 x4 x1 x3 (ix2 p q) = blockFn x0 x1 x2 x3 x4 (r0_6.emb (ix2 p q))
    rw [pay3_apply]
    exact (blockFn_hi x0 x1 x2 x3 x4 _ p q (by show 0 + 1 * p.val = _; omega) (by show 128 + 1 * q.val = _; omega)).symm
  · obtain ⟨p, q, rfl⟩ : ∃ (p : Fin 2000) (q : Fin 128), x = ix2 p q := ⟨x 0, x 1, eq_ix2 x⟩
    show k0_pay2 x4 x0 x2 (ix2 p q) = blockFn x0 x1 x2 x3 x4 (r0_5.emb (ix2 p q))
    rw [pay2_apply]
    exact (blockFn_lo x0 x1 x2 x3 x4 _ p q (by show 0 + 1 * p.val = _; omega) (by show 0 + 1 * q.val = _; omega)).symm
end

/-! ## The whole array -/

/-- Row `r`, column `c` of the 50000 x 256 result of region 0. -/
def projAt (a0 : Vec Ideal S50000x512 .f32) (a1 : Vec Ideal S50000x256 .f32) (a2 : Vec Ideal S512x128 .bf16)
    (a3 : Vec Ideal S256x128 .bf16) (a4 : Vec Ideal S50000x1 .f32) (r : Fin 50000) (c : Fin 256) : EReal :=
  if h : c.val < 128 then
    (∑ k : Fin 512, a0 (ix2 r k) * a2 (ix2 k (⟨c.val, h⟩ : Fin 128))) * a4 (ix2 r (0 : Fin 1))
  else
    (∑ k : Fin 256, a1 (ix2 r k) * a3 (ix2 k (⟨c.val - 128, by have := c.isLt; omega⟩ : Fin 128))) * a4 (ix2 r (0 : Fin 1))

/-- The result of region 0 as ONE function of the five arrays it reads: both projections, each row scaled by the
    row's factor, side by side. -/
def scaledProj (a0 : Vec Ideal S50000x512 .f32) (a1 : Vec Ideal S50000x256 .f32) (a2 : Vec Ideal S512x128 .bf16)
    (a3 : Vec Ideal S256x128 .bf16) (a4 : Vec Ideal S50000x1 .f32) : Vec Ideal S50000x256 .f32 := fun i =>
  projAt a0 a1 a2 a3 a4 ⟨(i 0).val, idx2_lt0 i⟩ ⟨(i 1).val, idx2_lt1 i⟩

section
variable (a0 : Vec Ideal S50000x512 .f32) (a1 : Vec Ideal S50000x256 .f32) (a2 : Vec Ideal S512x128 .bf16)
    (a3 : Vec Ideal S256x128 .bf16) (a4 : Vec Ideal S50000x1 .f32)

theorem scaledProj_lo (i : S50000x256.Idx) (r : Fin 50000) (q : Fin 128) (h0 : (i 0).val = r.val) (h1 : (i 1).val = q.val) :
    scaledProj a0 a1 a2 a3 a4 i = (∑ k : Fin 512, a0 (ix2 r k) * a2 (ix2 k q)) * a4 (ix2 r (0 : Fin 1)) := by
  have hr : (⟨(i 0).val, idx2_lt0 i⟩ : Fin 50000) = r := Fin.ext h0
  have h : (i 1).val < 128 := by have := q.isLt; omega
  have e : (⟨(i 1).val, h⟩ : Fin 128) = q := Fin.ext h1
  show projAt a0 a1 a2 a3 a4 ⟨(i 0).val, idx2_lt0 i⟩ ⟨(i 1).val, idx2_lt1 i⟩ = _
  unfold projAt
  rw [dif_pos h, hr, e]

theorem scaledProj_hi (i : S50000x256.Idx) (r : Fin 50000) (q : Fin 128) (h0 : (i 0).val = r.val) (h1 : (i 1).val = 128 + q.val) :
    scaledProj a0 a1 a2 a3 a4 i = (∑ k : Fin 256, a1 (ix2 r k) * a3 (ix2 k q)) * a4 (ix2 r (0 : Fin 1)) := by
  have hr : (⟨(i 0).val, idx2_lt0 i⟩ : Fin 50000) = r := Fin.ext h0
  have h : ¬ (i 1).val < 128 := by omega
  have e : (⟨(i 1).val - 128, by have := idx2_lt1 i; omega⟩ : Fin 128) = q := Fin.ext (by show (i 1).val - 128 = q.val; omega)
  show projAt a0 a1 a2 a3 a4 ⟨(i 0).val, idx2_lt0 i⟩ ⟨(i 1).val, idx2_lt1 i⟩ = _
  unfold projAt
  rw [dif_neg h, hr, e]
end

variable (V : (c : Dev nD) → (b : Ref sig .tc) → Buf (Elt Ideal) ((c : Thread nD τ).loc b))

/-- The printed index maps over the 25 grid points: the row-blocked windows sit at block row `t`, the two weight
    windows at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 ∧ t.val < 25 :=
  (by decide +kernel : ∀ t : Fin grid0.N, _)

/-- Row `p` of block `t` is row `2000 t + p` of the array. -/
def rowOf (t : Fin cfg0.N) (p : Fin 2000) : Fin 50000 := ⟨t.val * 2000 + p.val, by have := (idx_facts t).2.2.2.2.2.2.2.2.2.2.2.2; omega⟩

theorem rd0 (c : Dev nD) (t : Fin cfg0.N) (p : Fin 2000) (k : Fin 512) :
    iblk0 V c 0 t (ix2 p k) = V c main_arg0 (ix2 (rowOf t p) k) := by
  obtain ⟨a00, a01, -⟩ := idx_facts t
  show V c main_arg0 (((cfg0.win 0).blk t).view.emb (ix2 p k)) = _
  refine congrArg (V c main_arg0) (funext fun a => Fin.ext ?_)
  match a with
  | ⟨0, _⟩ => show win0_0.index t (0 : Fin 2) * 2000 + 1 * p.val = t.val * 2000 + p.val; omega
  | ⟨1, _⟩ => show win0_0.index t (1 : Fin 2) * 512 + 1 * k.val = k.val; omega

theorem rd1 (c : Dev nD) (t : Fin cfg0.N) (p : Fin 2000) (k : Fin 256) :
    iblk0 V c 1 t (ix2 p k) = V c main_arg1 (ix2 (rowOf t p) k) := by
  obtain ⟨-, -, a10, a11, -⟩ := idx_facts t
  show V c main_arg1 (((cfg0.win 1).blk t).view.emb (ix2 p k)) = _
  refine congrArg (V c main_arg1) (funext fun a => Fin.ext ?_)
  match a with
  | ⟨0, _⟩ => show win0_1.index t (0 : Fin 2) * 2000 + 1 * p.val = t.val * 2000 + p.val; omega
  | ⟨1, _⟩ => show win0_1.index t (1 : Fin 2) * 256 + 1 * k.val = k.val; omega

theorem rd2 (c : Dev nD) (t : Fin cfg0.N) (k : Fin 512) (q : Fin 128) :
    iblk0 V c 2 t (ix2 k q) = V c main_v21 (ix2 k q) := by
  obtain ⟨-, -, -, -, a20, a21, -⟩ := idx_facts t
  show V c main_v21 (((cfg0.win 2).blk t).view.emb (ix2 k q)) = _
  refine congrArg (V c main_v21) (funext fun a => Fin.ext ?_)
  match a with
  | ⟨0, _⟩ => show win0_2.index t (0 : Fin 2) * 512 + 1 * k.val = k.val; omega
  | ⟨1, _⟩ => show win0_2.index t (1 : Fin 2) * 128 + 1 * q.val = q.val; omega

theorem rd3 (c : Dev nD) (t : Fin cfg0.N) (k : Fin 256) (q : Fin 128) :
    iblk0 V c 3 t (ix2 k q) = V c main_v22 (ix2 k q) := by
  obtain ⟨-, -, -, -, -, -, a30, a31, -⟩ := idx_facts t
  show V c main_v22 (((cfg0.win 3).blk t).view.emb (ix2 k q)) = _
  refine congrArg (V c main_v22) (funext fun a => Fin.ext ?_)
  match a with
  | ⟨0, _⟩ => show win0_3.index t (0 : Fin 2) * 256 + 1 * k.val = k.val; omega
  | ⟨1, _⟩ => show win0_3.index t (1 : Fin 2) * 128 + 1 * q.val = q.val; omega

theorem rd4 (c : Dev nD) (t : Fin cfg0.N) (p : Fin 2000) :
    iblk0 V c 4 t (ix2 p (0 : Fin 1)) = V c main_v20 (ix2 (rowOf t p) (0 : Fin 1)) := by
  obtain ⟨-, -, -, -, -, -, -, -, a40, a41, -⟩ := idx_facts t
  show V c main_v20 (((cfg0.win 4).blk t).view.emb (ix2 p (0 : Fin 1))) = _
  refine congrArg (V c main_v20) (funext fun a => Fin.ext ?_)
  match a with
  | ⟨0, _⟩ => show win0_4.index t (0 : Fin 2) * 2000 + 1 * p.val = t.val * 2000 + p.val; omega
  | ⟨1, _⟩ => show win0_4.index t (1 : Fin 2) * 1 + 1 * 0 = 0; omega

/-- WHAT POINT `t` WRITES BACK is block `t` of `scaledProj` of the arrays as the region finds them. -/
theorem flushed0_eq (c : Dev nD) (t : Fin cfg0.N) :
    (dat0 V c).flushed 5 t = ((cfg0.win 5).blk t).view.read (Elt Ideal)
      (scaledProj (V c main_arg0) (V c main_arg1) (V c main_v21) (V c main_v22) (V c main_v20)) := by
  show (cfg0.win 5).cut (grid0.coords t) ((dat0 V c).after 5 t) = _
  rw [after0_5, out0_5_eq]
  obtain ⟨-, -, -, -, -, -, -, -, -, -, a50, a51, ht⟩ := idx_facts t
  funext j
  have hj0 : (j 0).val < 2000 := (j 0).isLt
  have hj1 : (j 1).val < 256 := (j 1).isLt
  have e0 : ((((cfg0.win 5).blk t).view.emb j) 0).val = (rowOf t ⟨(j 0).val, hj0⟩).val := by
    show win0_5.index t (0 : Fin 2) * 2000 + 1 * (j 0).val = t.val * 2000 + (j 0).val; omega
  have e1 : ((((cfg0.win 5).blk t).view.emb j) 1).val = (j 1).val := by
    show win0_5.index t (1 : Fin 2) * 256 + 1 * (j 1).val = (j 1).val; omega
  show blockFn (iblk0 V c 0 t) (iblk0 V c 1 t) (iblk0 V c 2 t) (iblk0 V c 3 t) (iblk0 V c 4 t) j
    = scaledProj (V c main_arg0) (V c main_arg1) (V c main_v21) (V c main_v22) (V c main_v20) (((cfg0.win 5).blk t).view.emb j)
  by_cases h : (j 1).val < 128
  · rw [blockFn_lo _ _ _ _ _ j ⟨(j 0).val, hj0⟩ ⟨(j 1).val, h⟩ rfl rfl,
      scaledProj_lo _ _ _ _ _ _ (rowOf t ⟨(j 0).val, hj0⟩) ⟨(j 1).val, h⟩ e0 e1, rd4]
    refine congrArg (· * _) (Finset.sum_congr rfl fun k _ => ?_)
    rw [rd0, rd2]
  · have hq : (j 1).val - 128 < 128 := by omega
    rw [blockFn_hi _ _ _ _ _ j ⟨(j 0).val, hj0⟩ ⟨(j 1).val - 128, hq⟩ rfl (by show (j 1).val = 128 + ((j 1).val - 128); omega),
      scaledProj_hi _ _ _ _ _ _ (rowOf t ⟨(j 0).val, hj0⟩) ⟨(j 1).val - 128, hq⟩ e0 (by rw [e1]; show (j 1).val = 128 + ((j 1).val - 128); omega), rd4]
    refine congrArg (· * _) (Finset.sum_congr rfl fun k _ => ?_)
    rw [rd1, rd3]

/-- An index of the array is in point `t`'s block iff each coordinate is in the block's range on its axis. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v23).slice (win0_5.rect t)).set ↔ _
  rw [View.set_slice_whole, Rect.mem_set_unit]
  exact Iff.rfl

/-- Every block row is some point's. -/
theorem idx_onto : ∀ q0 : Fin 25, ∃ t : Fin cfg0.N, win0_5.index t = ![q0.val, 0] :=
  (by decide +kernel : ∀ q0 : Fin 25, ∃ t : Fin grid0.N, win0_5.index t = ![q0.val, 0])

/-- The 25 blocks tile the array: row `r` lies in the block of point `r / 2000`. -/
theorem cover (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ := idx_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- THE ARRAY region 0 leaves: `scaledProj` of the five arrays it read. -/
theorem final0 (c : Dev nD) : (dat0 V c).arrAt 5 cfg0.N
    = scaledProj (V c main_arg0) (V c main_arg1) (V c main_v21) (V c main_v22) (V c main_v20) :=
  (dat0 V c).arrAt_eq_of_cover 5 _ (fun t _ => flushed0_eq V c t) cover

end Cert.KernelIdeal.Region0

end
-- ==== Proof.Region1Payload.lean ====
/-
  The second kernel's stored block read at one element, at the ideal values. Per row `p` the body scales the two
  128-wide halves of the row by the row's factor, adds a bias row to each, rectifies each (the maximum with zero),
  adds the two, and takes the logarithm of the softmax along the 128 lanes: with `s k` the row's value at lane `k`
  and `M` the row's maximum, element `(p, q)` is `(s q - M) - log (∑ k, exp (s k - M))`.
-/
import proofs.«130880_j36335423324414_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx

/-! ## Layout operations and lane reductions read at an index given by coordinates -/

section Layout
variable {α : Type}

/-- An `[a, 1]` column broadcast to `[a, b]` reads, at `(p, c)`, the column's entry of row `p`. -/
theorem broadcastTo_col_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(i, u)`, the operand at `i`, whatever the unit coordinate
    `u`: the two row-major positions are `i` and `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Reducing a matrix along its lanes: the source index over row `p` with lane coordinate `k` is `(p, k)`. -/
theorem lift_lane {a b : ℕ} (h : (⟨2, ![a, b]⟩ : Shape).Reduces [1] ⟨1, ![a]⟩) (p : Fin a) (k : Fin b) :
    h.lift (ix1 p) k = ix2 p k := by
  funext c; refine Fin.ext ?_
  match c with
  | ⟨0, _⟩ => rfl
  | ⟨1, _⟩ => rfl

end Layout

section LaneReductions
variable {φ : FTy}

/-- The exponential of a vector at an index is the exponential of the element. -/
theorem exp_apply {s : Shape} (x : FVec Ideal s φ) (i : s.Idx) : Idealize.ShloMosaic.exp x i = Ideal.exp (x i) := rfl
/-- The logarithm of a vector at an index is the logarithm of the element. -/
theorem log_apply {s : Shape} (x : FVec Ideal s φ) (i : s.Idx) : Idealize.ShloMosaic.log x i = Ideal.log (x i) := rfl

/-- A lane sum of a matrix read at row `p`: the sum over the lanes `k` of the element `(p, k)`. -/
theorem laneSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  rw [Ideal.multiReduction_add_single src acc h hφ hacc (ix1 p)]
  exact Finset.sum_congr rfl fun k _ => congrArg src (lift_lane h p k)

/-- A lane maximum of a matrix read at row `p`: the fold of `max`, from the accumulator's value, over the lanes `k`
    of the element `(p, k)`. -/
theorem laneMax_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) := by
  rw [Ideal.multiReduction_maximumf_single src acc h hφ hacc (ix1 p)]
  have e : src ∘ h.lift (ix1 p) = fun k : Fin b => src (ix2 p k) := funext fun k => congrArg src (lift_lane h p k)
  rw [e]
  rfl

end LaneReductions

/-! ## The two lane reductions of the body, at its own shapes -/

/-- The body's lane maximum at row `p`: the fold of `max` from the accumulator's value over the 128 lanes. -/
theorem laneMax_2000x128 (src : FVec Ideal S2000x128 .f32) (acc : BitVec FTy.f32.bits) (h : S2000x128.Reduces [1] S2000)
    (hφ : FKind.Formats .f32) (hacc : acc = FKind.maximumf.neutral .f32 hφ) (p : Fin 2000) :
    multiReduction .maximumf [1] S2000 src acc h hφ hacc (ix1 p)
      = (Finset.univ : Finset (Fin 128)).fold max (Ideal.ofBits .f32 acc) (fun k => src (ix2 p k)) :=
  laneMax_apply src acc h hφ hacc p

/-- The body's lane sum at row `p`: the sum over the 128 lanes. -/
theorem laneSum_2000x128 (src : FVec Ideal S2000x128 .f32) (acc : BitVec FTy.f32.bits) (h : S2000x128.Reduces [1] S2000)
    (hφ : FKind.Formats .f32) (hacc : acc = FKind.add.neutral .f32 hφ) (p : Fin 2000) :
    multiReduction .add [1] S2000 src acc h hφ hacc (ix1 p) = ∑ k : Fin 128, src (ix2 p k) :=
  laneSum_apply src acc h hφ hacc p

/-! ## The logarithm of the softmax along the lanes, read at an element -/

/-- For ANY block `S` of row values, the body's last twelve operations — the lane maximum `M` of each row kept as
    a column and broadcast back, the difference, its exponential, the lane sum kept as a column, its logarithm
    broadcast back, the second difference — read at `(p, q)` as `(S p q - M) - log (∑ k, exp (S p k - M))` with
    `M` the fold of `max` from `-∞` over row `p`. -/
theorem logSoftmaxRows_apply (S : FVec Ideal S2000x128 .f32)
    (hb : S2000x1.Broadcasts S2000x128) (hc : S2000.ShapeCasts S2000x1) (hr : S2000x128.Reduces [1] S2000)
    (hφ₁ : FKind.Formats .f32) (hacc₁ : (0xFF800000#32 : BitVec FTy.f32.bits) = FKind.maximumf.neutral .f32 hφ₁)
    (hφ₂ : FKind.Formats .f32) (hacc₂ : (0x00000000#32 : BitVec FTy.f32.bits) = FKind.add.neutral .f32 hφ₂)
    (p : Fin 2000) (q : Fin 128) :
    subf (subf S (broadcastTo S2000x128 (shapeCast S2000x1
          (multiReduction .maximumf [1] S2000 S 0xFF800000#32 hr hφ₁ hacc₁) hc) hb))
      (broadcastTo S2000x128 (Idealize.ShloMosaic.log (shapeCast S2000x1 (multiReduction .add [1] S2000
        (Idealize.ShloMosaic.exp (subf S (broadcastTo S2000x128 (shapeCast S2000x1
          (multiReduction .maximumf [1] S2000 S 0xFF800000#32 hr hφ₁ hacc₁) hc) hb)))
        0x00000000#32 hr hφ₂ hacc₂) hc)) hb) (ix2 p q)
    = (S (ix2 p q) - (Finset.univ : Finset (Fin 128)).fold max (Ideal.ofBits .f32 0xFF800000#32) (fun k => S (ix2 p k)))
      - Ideal.log (∑ k : Fin 128, Ideal.exp (S (ix2 p k)
          - (Finset.univ : Finset (Fin 128)).fold max (Ideal.ofBits .f32 0xFF800000#32) (fun k => S (ix2 p k)))) := by
  have hM : multiReduction .maximumf [1] S2000 S 0xFF800000#32 hr hφ₁ hacc₁ (ix1 p)
      = (Finset.univ : Finset (Fin 128)).fold max (Ideal.ofBits .f32 0xFF800000#32) (fun k => S (ix2 p k)) :=
    laneMax_2000x128 S _ hr hφ₁ hacc₁ p
  simp only [subf_apply, log_apply, broadcastTo_col_apply, shapeCast_a_a1_apply]
  rw [laneSum_2000x128 _ _ hr hφ₂ hacc₂ p]
  simp only [exp_apply, subf_apply, broadcastTo_col_apply, shapeCast_a_a1_apply, hM]

/-! ## The payload at an element -/

/-- The value of row `p` at lane `k` before the softmax: the two halves of the row, each scaled by the row's factor,
    shifted by its bias row and rectified, added. -/
def rowVal (v0 : Vec Ideal S2000x1 .f32) (v2 : Vec Ideal S2000x128 .f32) (v6 : Vec Ideal S128 .f32)
    (v12 : Vec Ideal S2000x128 .f32) (v16 : Vec Ideal S128 .f32) (p : Fin 2000) (k : Fin 128) : EReal :=
  max (v2 (ix2 p k) * v0 (ix2 p (0 : Fin 1)) + v6 (ix1 k)) (Ideal.ofBits .f32 0x00000000#32)
    + max (v12 (ix2 p k) * v0 (ix2 p (0 : Fin 1)) + v16 (ix1 k)) (Ideal.ofBits .f32 0x00000000#32)

/-- The maximum of row `p` over its 128 lanes, folded from `-∞` (the word `0xFF800000`). -/
def rowMax (v0 : Vec Ideal S2000x1 .f32) (v2 : Vec Ideal S2000x128 .f32) (v6 : Vec Ideal S128 .f32)
    (v12 : Vec Ideal S2000x128 .f32) (v16 : Vec Ideal S128 .f32) (p : Fin 2000) : EReal :=
  (Finset.univ : Finset (Fin 128)).fold max (Ideal.ofBits .f32 0xFF800000#32) (rowVal v0 v2 v6 v12 v16 p)

/-- THE STORED BLOCK AT `(p, q)`: the logarithm of the softmax of row `p` at lane `q`, written as the shifted value
    minus the logarithm of the sum of the shifted exponentials. -/
theorem k1_pay1_apply (v0 : Vec Ideal S2000x1 .f32) (v2 : Vec Ideal S2000x128 .f32) (v6 : Vec Ideal S128 .f32)
    (v12 : Vec Ideal S2000x128 .f32) (v16 : Vec Ideal S128 .f32) (p : Fin 2000) (q : Fin 128) :
    k1_pay1 (F := Ideal) v0 v2 v6 v12 v16 (ix2 p q)
      = (rowVal v0 v2 v6 v12 v16 p q - rowMax v0 v2 v6 v12 v16 p)
        - Ideal.log (∑ k : Fin 128, Ideal.exp (rowVal v0 v2 v6 v12 v16 p k - rowMax v0 v2 v6 v12 v16 p)) := by
  unfold k1_pay1
  refine (logSoftmaxRows_apply _ _ _ _ _ _ _ _ p q).trans ?_
  simp only [shapeCast_self, addf_apply, mulf_apply, maximumf_apply, broadcast_apply,
    broadcastTo_col_apply, broadcastTo_1b_ab_apply, shapeCast_a_1a_apply]
  unfold rowMax rowVal
  rfl

end Cert.KernelIdeal.Region1

end
-- ==== Proof.Region1Value.lean ====
/-
  Region 1 of the idealized kernel, read as a value.

  Each of the 25 grid points takes 2000 rows of the 256-wide aggregated array S, the same rows of the per-node factor
  d (a column), and the two bias rows.  For a row r it forms the 128 sums
      s k = max (S[r, k] * d[r] + b1[k]) 0 + max (S[r, 128 + k] * d[r] + b2[k]) 0
  and writes their log-softmax along k: (s k - M) - log (sum over k' of exp (s k' - M)), M the row's maximum folded
  from -infinity.  The 25 blocks tile the 50000 x 128 result, so the whole array is ONE function `fused` of the four
  arrays the region reads.
-/
import proofs.«130880_j36335423324414_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«130880_j36335423324414_2_alg».proof.Proof.Region1Payload
set_option maxRecDepth 16384

noncomputable section

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat)

/-! ## One row -/

/-- A row's 128 sums from its two 128-wide halves `lo`, `hi`, its factor `d` and the two bias rows. -/
def act (lo hi : Fin 128 → EReal) (d : EReal) (b1 b2 : Fin 128 → EReal) : Fin 128 → EReal := fun k =>
  max (lo k * d + b1 k) (Ideal.ofBits .f32 0x00000000#32) + max (hi k * d + b2 k) (Ideal.ofBits .f32 0x00000000#32)

/-- The log-softmax of a row of 128 extended reals, the maximum folded from the value of the -infinity word. -/
def lsm (s : Fin 128 → EReal) (q : Fin 128) : EReal :=
  (s q - (Finset.univ : Finset (Fin 128)).fold max (Ideal.ofBits .f32 0xFF800000#32) s)
    - Ideal.log (∑ k' : Fin 128, Ideal.exp (s k' - (Finset.univ : Finset (Fin 128)).fold max (Ideal.ofBits .f32 0xFF800000#32) s))

/-- The body's one payload at an index, in the words of this file: the log-softmax of the row's 128 sums. -/
theorem pay_apply (v0 : Vec Ideal S2000x1 .f32) (v2 : Vec Ideal S2000x128 .f32) (v6 : Vec Ideal S128 .f32)
    (v12 : Vec Ideal S2000x128 .f32) (v16 : Vec Ideal S128 .f32) (p : Fin 2000) (q : Fin 128) :
    k1_pay1 v0 v2 v6 v12 v16 (ix2 p q)
      = lsm (act (fun k => v2 (ix2 p k)) (fun k => v12 (ix2 p k)) (v0 (ix2 p (0 : Fin 1))) (fun k => v6 (ix1 k)) (fun k => v16 (ix1 k))) q := by
  rw [k1_pay1_apply]; rfl

/-! ## The whole array -/

/-- Row `r`, entry `q` of the result of region 1. -/
def fusedAt (S : Vec Ideal S50000x256 .f32) (d : Vec Ideal S50000x1 .f32) (b1 b2 : Vec Ideal S128 .f32)
    (r : Fin 50000) (q : Fin 128) : EReal :=
  lsm (act (fun k => S (ix2 r (⟨k.val, by have := k.isLt; omega⟩ : Fin 256))) (fun k => S (ix2 r (⟨128 + k.val, by have := k.isLt; omega⟩ : Fin 256)))
    (d (ix2 r (0 : Fin 1))) (fun k => b1 (ix1 k)) (fun k => b2 (ix1 k))) q

/-- The result of region 1 as ONE function of the four arrays it reads. -/
def fused (S : Vec Ideal S50000x256 .f32) (d : Vec Ideal S50000x1 .f32) (b1 b2 : Vec Ideal S128 .f32) :
    Vec Ideal S50000x128 .f32 := fun i => fusedAt S d b1 b2 ⟨(i 0).val, idx2_lt0 i⟩ ⟨(i 1).val, idx2_lt1 i⟩

theorem hz2 : (![0, 0] : Fin 2 → Nat) = fun _ => 0 := funext fun a => by fin_cases a <;> rfl
theorem hz1 : (![0] : Fin 1 → Nat) = fun _ => 0 := funext fun a => by fin_cases a; rfl

variable (V : (c : Dev nD) → (b : Ref sig .tc) → Buf (Elt Ideal) ((c : Thread nD τ).loc b))

/-- The printed index maps over the 25 grid points. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0 ∧ win1_3.index t (0 : Fin 1) = 0
    ∧ win1_4.index t (0 : Fin 2) = t.val ∧ win1_4.index t (1 : Fin 2) = 0 ∧ t.val < 25 :=
  (by decide +kernel : ∀ t : Fin grid1.N, _)

/-- Row `p` of block `t` is row `2000 t + p` of the array. -/
def rowOf (t : Fin cfg1.N) (p : Fin 2000) : Fin 50000 := ⟨t.val * 2000 + p.val, by have := (idx_facts t).2.2.2.2.2.2.2.2; omega⟩

theorem rd0 (c : Dev nD) (t : Fin cfg1.N) (p : Fin 2000) (k : Fin 256) :
    iblk1 V c 0 t (ix2 p k) = V c main_v33 (ix2 (rowOf t p) k) := by
  obtain ⟨a00, a01, -⟩ := idx_facts t
  show V c main_v33 (((cfg1.win 0).blk t).view.emb (ix2 p k)) = _
  refine congrArg (V c main_v33) (funext fun a => Fin.ext ?_)
  match a with
  | ⟨0, _⟩ => show win1_0.index t (0 : Fin 2) * 2000 + 1 * p.val = t.val * 2000 + p.val; omega
  | ⟨1, _⟩ => show win1_0.index t (1 : Fin 2) * 256 + 1 * k.val = k.val; omega

theorem rd1 (c : Dev nD) (t : Fin cfg1.N) (p : Fin 2000) :
    iblk1 V c 1 t (ix2 p (0 : Fin 1)) = V c main_v20 (ix2 (rowOf t p) (0 : Fin 1)) := by
  obtain ⟨-, -, a10, a11, -⟩ := idx_facts t
  show V c main_v20 (((cfg1.win 1).blk t).view.emb (ix2 p (0 : Fin 1))) = _
  refine congrArg (V c main_v20) (funext fun a => Fin.ext ?_)
  match a with
  | ⟨0, _⟩ => show win1_1.index t (0 : Fin 2) * 2000 + 1 * p.val = t.val * 2000 + p.val; omega
  | ⟨1, _⟩ => show win1_1.index t (1 : Fin 2) * 1 + 1 * 0 = 0; omega

theorem rd2 (c : Dev nD) (t : Fin cfg1.N) (k : Fin 128) :
    iblk1 V c 2 t (ix1 k) = V c main_arg4 (ix1 k) := by
  obtain ⟨-, -, -, -, a2, -⟩ := idx_facts t
  show V c main_arg4 (((cfg1.win 2).blk t).view.emb (ix1 k)) = _
  refine congrArg (V c main_arg4) (funext fun a => Fin.ext ?_)
  match a with
  | ⟨0, _⟩ => show win1_2.index t (0 : Fin 1) * 128 + 1 * k.val = k.val; omega

theorem rd3 (c : Dev nD) (t : Fin cfg1.N) (k : Fin 128) :
    iblk1 V c 3 t (ix1 k) = V c main_arg6 (ix1 k) := by
  obtain ⟨-, -, -, -, -, a3, -⟩ := idx_facts t
  show V c main_arg6 (((cfg1.win 3).blk t).view.emb (ix1 k)) = _
  refine congrArg (V c main_arg6) (funext fun a => Fin.ext ?_)
  match a with
  | ⟨0, _⟩ => show win1_3.index t (0 : Fin 1) * 128 + 1 * k.val = k.val; omega

/-! ## A block of the result as one function of the four blocks it reads -/

/-- Row `p`, entry `q` of a 2000 x 128 block. -/
def blockAt (x0 : Vec Ideal S2000x256 .f32) (x1 : Vec Ideal S2000x1 .f32) (x2 x3 : Vec Ideal S128 .f32)
    (p : Fin 2000) (q : Fin 128) : EReal :=
  lsm (act (fun k => x0 (ix2 p (⟨k.val, by have := k.isLt; omega⟩ : Fin 256))) (fun k => x0 (ix2 p (⟨128 + k.val, by have := k.isLt; omega⟩ : Fin 256)))
    (x1 (ix2 p (0 : Fin 1))) (fun k => x2 (ix1 k)) (fun k => x3 (ix1 k))) q

/-- The one store of the body leaves `blockAt` at every index of the block. -/
theorem out1_4_apply (x0 : Vec Ideal S2000x256 .f32) (x1 : Vec Ideal S2000x1 .f32) (x2 x3 : Vec Ideal S128 .f32)
    (p : Fin 2000) (q : Fin 128) : out1_4 x0 x1 x2 x3 (ix2 p q) = blockAt x0 x1 x2 x3 p q := by
  unfold out1_4
  rw [View.canon_unit_zero hz2]
  simp only [View.ld_unit_zero (S := S2000x1) hz2, View.ld_unit_zero (S := S128) hz1]
  rw [pay_apply]
  have l1 : (fun k : Fin 128 => View.ld x0 r1_1 (ix2 p k)) = fun k : Fin 128 => x0 (ix2 p (⟨k.val, by have := k.isLt; omega⟩ : Fin 256)) :=
    funext fun k => congrArg x0 (funext fun a => Fin.ext (by
      match a with
      | ⟨0, _⟩ => show 0 + 1 * p.val = p.val; omega
      | ⟨1, _⟩ => show 0 + 1 * k.val = k.val; omega))
  have l3 : (fun k : Fin 128 => View.ld x0 r1_3 (ix2 p k)) = fun k : Fin 128 => x0 (ix2 p (⟨128 + k.val, by have := k.isLt; omega⟩ : Fin 256)) :=
    funext fun k => congrArg x0 (funext fun a => Fin.ext (by
      match a with
      | ⟨0, _⟩ => show 0 + 1 * p.val = p.val; omega
      | ⟨1, _⟩ => show 128 + 1 * k.val = 128 + k.val; omega))
  unfold blockAt
  rw [l1, l3]

/-- WHAT POINT `t` WRITES BACK is block `t` of `fused` of the arrays as the region finds them. -/
theorem flushed1_eq (c : Dev nD) (t : Fin cfg1.N) :
    (dat1 V c).flushed 4 t = ((cfg1.win 4).blk t).view.read (Elt Ideal)
      (fused (V c main_v33) (V c main_v20) (V c main_arg4) (V c main_arg6)) := by
  show (cfg1.win 4).cut (grid1.coords t) ((dat1 V c).after 4 t) = _
  rw [after1_4]
  obtain ⟨-, -, -, -, -, -, a40, a41, ht⟩ := idx_facts t
  funext j
  have hj0 : (j 0).val < 2000 := (j 0).isLt
  have hj1 : (j 1).val < 128 := (j 1).isLt
  have e0 : ((((cfg1.win 4).blk t).view.emb j) 0).val = (rowOf t ⟨(j 0).val, hj0⟩).val := by
    show win1_4.index t (0 : Fin 2) * 2000 + 1 * (j 0).val = t.val * 2000 + (j 0).val; omega
  have e1 : ((((cfg1.win 4).blk t).view.emb j) 1).val = (j 1).val := by
    show win1_4.index t (1 : Fin 2) * 128 + 1 * (j 1).val = (j 1).val; omega
  have hr : (⟨((((cfg1.win 4).blk t).view.emb j) 0).val, idx2_lt0 _⟩ : Fin 50000) = rowOf t ⟨(j 0).val, hj0⟩ := Fin.ext e0
  have hq : (⟨((((cfg1.win 4).blk t).view.emb j) 1).val, idx2_lt1 _⟩ : Fin 128) = ⟨(j 1).val, hj1⟩ := Fin.ext e1
  have hj : j = ix2 (⟨(j 0).val, hj0⟩ : Fin 2000) (⟨(j 1).val, hj1⟩ : Fin 128) := eq_ix2 j
  show out1_4 (iblk1 V c 0 t) (iblk1 V c 1 t) (iblk1 V c 2 t) (iblk1 V c 3 t) j
    = fusedAt (V c main_v33) (V c main_v20) (V c main_arg4) (V c main_arg6)
        ⟨((((cfg1.win 4).blk t).view.emb j) 0).val, idx2_lt0 _⟩ ⟨((((cfg1.win 4).blk t).view.emb j) 1).val, idx2_lt1 _⟩
  rw [hr, hq]
  refine (congrArg (out1_4 (iblk1 V c 0 t) (iblk1 V c 1 t) (iblk1 V c 2 t) (iblk1 V c 3 t)) hj).trans ?_
  rw [out1_4_apply]
  unfold blockAt fusedAt
  simp only [rd0 V c t, rd1 V c t, rd2 V c t, rd3 V c t]

/-- An index of the array is in point `t`'s block iff each coordinate is in the block's range on its axis. -/
theorem mem_blk (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v34).slice (win1_4.rect t)).set ↔ _
  rw [View.set_slice_whole, Rect.mem_set_unit]
  exact Iff.rfl

/-- Every block row is some point's. -/
theorem idx_onto : ∀ q0 : Fin 25, ∃ t : Fin cfg1.N, win1_4.index t = ![q0.val, 0] :=
  (by decide +kernel : ∀ q0 : Fin 25, ∃ t : Fin grid1.N, win1_4.index t = ![q0.val, 0])

/-- The 25 blocks tile the array: row `r` lies in the block of point `r / 2000`. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := idx_onto ⟨(i 0).val / 2000, by omega⟩
  have q0 : win1_4.index t (0 : Fin 2) = (i 0).val / 2000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

/-- THE ARRAY region 1 leaves: `fused` of the four arrays it read. -/
theorem final1 (c : Dev nD) : (dat1 V c).arrAt 4 cfg1.N
    = fused (V c main_v33) (V c main_v20) (V c main_arg4) (V c main_arg6) :=
  (dat1 V c).arrAt_eq_of_cover 4 _ (fun t _ => flushed1_eq V c t) cover

end Cert.KernelIdeal.Region1

end
-- ==== Proof.RefRead.lean ====
/-
  The reference program read at an index, at the ideal (extended-real) float values.

  The reference is a two-modality graph convolution followed by a row-wise log-softmax. Writing, for a node v and a
  channel k,
      act v k  = max (out₁ v k + b₁ k) 0 + max (out₂ v k + b₂ k) 0          (the two rectified layers, summed)
      rowMax v = the maximum over the 128 channels k' of act v k'           (taken from minus infinity)
  the result at (v, k) is   (act v k - rowMax v) - log (∑ k', exp (act v k' - rowMax v)).
  Here out₁ and out₂ are the two scatter-add results (segment sums over incoming edges); this module does not open them.

  It also records two facts about the normalisation: the factor where(deg > 0, rsqrt deg, 0) is a non-negative real
  number whatever the degree is, and an edge's destination, wrapped as a possibly negative index and clamped into range,
  is the destination itself when that already reads as a node number.
-/
import proofs.«130880_j36335423324414_2_alg».proof.Proof.RefReadP

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-! ## Generic facts -/

/-- The bit pattern of minus infinity denotes the bottom element of the extended reals. -/
theorem ofBits_neg_inf_f32 : Ideal.ofBits .f32 0xFF800000#32 = ⊥ := by
  simp [Ideal.ofBits, Ideal.ieee]

/-- A node index with the channel coordinate k put back is the index (v, k). -/
theorem lift_row (h : S50000x128.Reduces [1] S50000) (v : Fin 50000) (k : Fin (S50000x128.size 1)) :
    h.lift (ix1 v) k = ix2 v (⟨k.val, k.isLt⟩ : Fin 128) := by
  funext c; apply Fin.ext
  fin_cases c <;> rfl

/-- A maximum-reduce along the channel axis, at node v: the fold of max from the initial value over the 128 channels. -/
theorem hostRowMax (y : S50000x128.Idx → Ideal .f32) (init : S_.Idx → Ideal .f32) (v : Fin 50000) :
    Host.reduce FloatOps.maximumf y init reducesTo_S50000x128_S50000_d1 h_S_ (ix1 v)
      = (Finset.univ : Finset (Fin 128)).fold max (init (Shape.Idx.first h_S_)) (fun k' => y (ix2 v k')) := by
  have h : S50000x128.Reduces [1] S50000 := by decide
  rw [Host.reduce_eq_fold_single FloatOps.maximumf y init reducesTo_S50000x128_S50000_d1 h h_S_]
  have hf : (y ∘ h.lift (ix1 v)) = fun k' : Fin 128 => y (ix2 v k') := funext fun k => congrArg y (lift_row h v k)
  exact congrArg (fun f => Finset.fold max (init (Shape.Idx.first h_S_)) f (Finset.univ : Finset (Fin 128))) hf

/-- where(d > 0, rsqrt d, 0) is a non-negative real number at every extended real d: for d ≤ 0 (minus infinity too) it is 0,
    at plus infinity rsqrt is 0, and at a positive real r it is 1 / √r. -/
theorem where_rsqrt_nonneg (d : EReal) :
    ∃ δ : ℝ, 0 ≤ δ ∧
      Scalar.select (FloatOps.cmpf (F := Ideal) (φ := .f32) .ogt d (FloatOps.ofBits (F := Ideal) .f32 0x00000000#32))
        (FloatOps.hostUnary (F := Ideal) (φ := .f32) .rsqrt d) (FloatOps.ofBits (F := Ideal) .f32 0x00000000#32) = (δ : EReal) := by
  rw [Ideal.cmpf_def, Ideal.hostUnary_rsqrt_def, Ideal.ofBits_def, Ideal.ofBits_zero_f32]
  unfold Ideal.cmp
  by_cases hd : (0 : EReal) < d
  · have hc : BitVec.ofBool (decide ((0 : EReal) < d)) = 1#1 := by rw [decide_eq_true hd]; rfl
    rw [hc, select_one]
    induction d using EReal.rec with
    | bot => exact absurd hd (not_lt.mpr bot_le)
    | top => exact ⟨0, le_refl _, by rw [Ideal.rsqrt_top]; rfl⟩
    | coe r =>
      have hr : 0 < r := EReal.coe_pos.mp hd
      refine ⟨(Real.sqrt r)⁻¹, inv_nonneg.mpr (Real.sqrt_nonneg r), ?_⟩
      rw [Ideal.rsqrt_coe, if_neg (not_lt.mpr hr.le), if_neg hr.ne']
  · have hc : BitVec.ofBool (decide ((0 : EReal) < d)) = 0#1 := by rw [decide_eq_false hd]; rfl
    rw [hc, select_zero]
    exact ⟨0, le_refl _, rfl⟩

/-- For a 32-bit word w that reads, signed, as a natural number n below 50000: the wrapped word select(w < 0, w + 50000, w)
    is w itself, so read signed and clamped into [0, 49999] it is n. -/
theorem wrap_clamp_of_toInt (w : BitVec 32) (n : Nat) (hn : n < 50000) (hw : w.toInt = (n : Int)) :
    min (Scalar.select (IntOp.cmpi .slt w 0#32) (IntOp.addi w 50000#32) w).toInt.toNat (50000 - 1) = n := by
  have hs : IntOp.cmpi .slt w 0#32 = 0#1 := by
    unfold IntOp.cmpi
    have : w.slt 0#32 = false := by
      unfold BitVec.slt
      rw [hw]
      exact decide_eq_false (by simp)
    simp only [this]
    rfl
  rw [hs, select_zero, hw]
  simp only [Int.toNat_natCast]
  omega

/-! ## The indices the layout operations read at -/

theorem idx_b1 (v : Fin 50000) (k : Fin 128) : ReadP.idx_main_v49 (ReadP.idx_main_v50 (ix2 v k)) = ix1 k := by
  funext a; match a with | ⟨0, _⟩ => rfl
theorem idx_b2 (v : Fin 50000) (k : Fin 128) : ReadP.idx_main_v95 (ReadP.idx_main_v96 (ix2 v k)) = ix1 k := by
  funext a; match a with | ⟨0, _⟩ => rfl
theorem idx_max (v : Fin 50000) (k : Fin 128) : ReadP.idx_main_call4_v3 (ReadP.idx_main_call4_v4 (ix2 v k)) = ix1 v := by
  funext a; match a with | ⟨0, _⟩ => rfl
theorem idx_sum (v : Fin 50000) (k k' : Fin 128) :
    ReadP.idx_main_call4_v7 (ReadP.idx_main_call4_v8 (ReadP.idx_main_call4_v10 (ix2 v k))) k' = ix2 v k' := by
  funext a; match a with | ⟨0, _⟩ => rfl | ⟨1, _⟩ => rfl
theorem idx_dst_raw (e : Fin 850000) : ReadP.idx_main_v47 (ix2 e (0 : Fin 1)) = ix1 e := by
  funext a; match a with | ⟨0, _⟩ => rfl
theorem idx_dst_wrapped (e : Fin 850000) : ReadP.idx_main_v33 (ix2 e (0 : Fin 1)) = ix1 e := by
  funext a; match a with | ⟨0, _⟩ => rfl
theorem idx_dst_raw2 (e : Fin 850000) : ReadP.idx_main_v93 (ix2 e (0 : Fin 1)) = ix1 e := by
  funext a; match a with | ⟨0, _⟩ => rfl
theorem idx_dst_wrapped2 (e : Fin 850000) : ReadP.idx_main_v79 (ix2 e (0 : Fin 1)) = ix1 e := by
  funext a; match a with | ⟨0, _⟩ => rfl

/-! ## The softmax tail -/

/-- The summed rectified layers at node v and channel k: max (out₁ + b₁) 0 + max (out₂ + b₂) 0, with out₁, out₂ the two
    scatter-add results, left unopened. The zero is the extended real 0 (the pattern 0x00000000 read at the ideal values). -/
def act (x0 : (⟨S50000x512, .f32⟩ : BufTy).Contents (Elt Ideal)) (x1 : (⟨S50000x256, .f32⟩ : BufTy).Contents (Elt Ideal))
    (x2 : (⟨S2x800000, .i32⟩ : BufTy).Contents (Elt Ideal)) (x3 : (⟨S512x128, .f32⟩ : BufTy).Contents (Elt Ideal))
    (x4 : (⟨S128, .f32⟩ : BufTy).Contents (Elt Ideal)) (x5 : (⟨S256x128, .f32⟩ : BufTy).Contents (Elt Ideal))
    (x6 : (⟨S128, .f32⟩ : BufTy).Contents (Elt Ideal))
    (v : Fin 50000) (k : Fin 128) : EReal :=
  max (ReadP.val_main_v48 (F := Ideal) x0 x2 x3 (ix2 v k) + x4 (ix1 k)) 0
    + max (ReadP.val_main_v94 (F := Ideal) x1 x2 x5 (ix2 v k) + x6 (ix1 k)) 0

/-- The row maximum at node v: the fold of max from the bottom element over the 128 channels. -/
def rowMax (x0 : (⟨S50000x512, .f32⟩ : BufTy).Contents (Elt Ideal)) (x1 : (⟨S50000x256, .f32⟩ : BufTy).Contents (Elt Ideal))
    (x2 : (⟨S2x800000, .i32⟩ : BufTy).Contents (Elt Ideal)) (x3 : (⟨S512x128, .f32⟩ : BufTy).Contents (Elt Ideal))
    (x4 : (⟨S128, .f32⟩ : BufTy).Contents (Elt Ideal)) (x5 : (⟨S256x128, .f32⟩ : BufTy).Contents (Elt Ideal))
    (x6 : (⟨S128, .f32⟩ : BufTy).Contents (Elt Ideal))
    (v : Fin 50000) : EReal :=
  (Finset.univ : Finset (Fin 128)).fold max ⊥ (fun k' => act x0 x1 x2 x3 x4 x5 x6 v k')

/-- The row maximum is the supremum of the row. -/
theorem rowMax_eq_sup (x0 : (⟨S50000x512, .f32⟩ : BufTy).Contents (Elt Ideal)) (x1 : (⟨S50000x256, .f32⟩ : BufTy).Contents (Elt Ideal))
    (x2 : (⟨S2x800000, .i32⟩ : BufTy).Contents (Elt Ideal)) (x3 : (⟨S512x128, .f32⟩ : BufTy).Contents (Elt Ideal))
    (x4 : (⟨S128, .f32⟩ : BufTy).Contents (Elt Ideal)) (x5 : (⟨S256x128, .f32⟩ : BufTy).Contents (Elt Ideal))
    (x6 : (⟨S128, .f32⟩ : BufTy).Contents (Elt Ideal))
    (v : Fin 50000) :
    rowMax x0 x1 x2 x3 x4 x5 x6 v = (Finset.univ : Finset (Fin 128)).sup (fun k' => act x0 x1 x2 x3 x4 x5 x6 v k') := rfl

/-- Every entry of the row is at most the row maximum. -/
theorem act_le_rowMax (x0 : (⟨S50000x512, .f32⟩ : BufTy).Contents (Elt Ideal)) (x1 : (⟨S50000x256, .f32⟩ : BufTy).Contents (Elt Ideal))
    (x2 : (⟨S2x800000, .i32⟩ : BufTy).Contents (Elt Ideal)) (x3 : (⟨S512x128, .f32⟩ : BufTy).Contents (Elt Ideal))
    (x4 : (⟨S128, .f32⟩ : BufTy).Contents (Elt Ideal)) (x5 : (⟨S256x128, .f32⟩ : BufTy).Contents (Elt Ideal))
    (x6 : (⟨S128, .f32⟩ : BufTy).Contents (Elt Ideal))
    (v : Fin 50000) (k : Fin 128) :
    act x0 x1 x2 x3 x4 x5 x6 v k ≤ rowMax x0 x1 x2 x3 x4 x5 x6 v := by
  rw [rowMax_eq_sup]; exact Finset.le_sup (f := fun k' => act x0 x1 x2 x3 x4 x5 x6 v k') (Finset.mem_univ k)

/-- The sum of the two rectified layers, read at (v, k). -/
theorem val_main_v99_at (x0 : (⟨S50000x512, .f32⟩ : BufTy).Contents (Elt Ideal)) (x1 : (⟨S50000x256, .f32⟩ : BufTy).Contents (Elt Ideal))
    (x2 : (⟨S2x800000, .i32⟩ : BufTy).Contents (Elt Ideal)) (x3 : (⟨S512x128, .f32⟩ : BufTy).Contents (Elt Ideal))
    (x4 : (⟨S128, .f32⟩ : BufTy).Contents (Elt Ideal)) (x5 : (⟨S256x128, .f32⟩ : BufTy).Contents (Elt Ideal))
    (x6 : (⟨S128, .f32⟩ : BufTy).Contents (Elt Ideal))
    (v : Fin 50000) (k : Fin 128) :
    ReadP.val_main_v99 (F := Ideal) x0 x1 x2 x3 x4 x5 x6 (ix2 v k) = act x0 x1 x2 x3 x4 x5 x6 v k := by
  rw [ReadP.val_main_v99_apply, ReadP.val_main_v52_apply, ReadP.val_main_v51_apply, ReadP.val_main_v50_apply,
    ReadP.val_main_v49_apply, ReadP.val_main_call1_v0_apply, ReadP.val_main_call1_cst_apply,
    ReadP.val_main_v98_apply, ReadP.val_main_v97_apply, ReadP.val_main_v96_apply, ReadP.val_main_v95_apply,
    ReadP.val_main_call3_v0_apply, ReadP.val_main_call3_cst_apply, idx_b1, idx_b2]
  simp only [Ideal.addf_def, Ideal.maximumf_def, Ideal.ofBits_def, Ideal.ofBits_zero_f32]
  rfl

/-- The maximum-reduce, then the maximum with the minus-infinity splat, read at node v: the row maximum. -/
theorem val_main_call4_v2_at (x0 : (⟨S50000x512, .f32⟩ : BufTy).Contents (Elt Ideal)) (x1 : (⟨S50000x256, .f32⟩ : BufTy).Contents (Elt Ideal))
    (x2 : (⟨S2x800000, .i32⟩ : BufTy).Contents (Elt Ideal)) (x3 : (⟨S512x128, .f32⟩ : BufTy).Contents (Elt Ideal))
    (x4 : (⟨S128, .f32⟩ : BufTy).Contents (Elt Ideal)) (x5 : (⟨S256x128, .f32⟩ : BufTy).Contents (Elt Ideal))
    (x6 : (⟨S128, .f32⟩ : BufTy).Contents (Elt Ideal))
    (v : Fin 50000) :
    ReadP.val_main_call4_v2 (F := Ideal) x0 x1 x2 x3 x4 x5 x6 (ix1 v) = rowMax x0 x1 x2 x3 x4 x5 x6 v := by
  rw [ReadP.val_main_call4_v2_apply, ReadP.val_main_call4_v1_apply, ReadP.val_main_call4_cst_0_apply]
  unfold ReadP.val_main_call4_v0
  rw [hostRowMax, ReadP.val_main_call4_cst_apply]
  simp only [val_main_v99_at, Ideal.maximumf_def, Ideal.ofBits_def, ofBits_neg_inf_f32, bot_sup_eq]
  rfl

/-- The shifted logits, read at (v, k). -/
theorem val_main_call4_v5_at (x0 : (⟨S50000x512, .f32⟩ : BufTy).Contents (Elt Ideal)) (x1 : (⟨S50000x256, .f32⟩ : BufTy).Contents (Elt Ideal))
    (x2 : (⟨S2x800000, .i32⟩ : BufTy).Contents (Elt Ideal)) (x3 : (⟨S512x128, .f32⟩ : BufTy).Contents (Elt Ideal))
    (x4 : (⟨S128, .f32⟩ : BufTy).Contents (Elt Ideal)) (x5 : (⟨S256x128, .f32⟩ : BufTy).Contents (Elt Ideal))
    (x6 : (⟨S128, .f32⟩ : BufTy).Contents (Elt Ideal))
    (v : Fin 50000) (k : Fin 128) :
    ReadP.val_main_call4_v5 (F := Ideal) x0 x1 x2 x3 x4 x5 x6 (ix2 v k) = act x0 x1 x2 x3 x4 x5 x6 v k - rowMax x0 x1 x2 x3 x4 x5 x6 v := by
  rw [ReadP.val_main_call4_v5_apply, ReadP.val_main_call4_v4_apply, ReadP.val_main_call4_v3_apply, idx_max,
    val_main_call4_v2_at, val_main_v99_at, Ideal.subf_def]

/-- THE RESULT READ AT (v, k), with the add-reduce's initial value 0 still in front of the sum. -/
theorem val_main_v100_at_raw (x0 : (⟨S50000x512, .f32⟩ : BufTy).Contents (Elt Ideal)) (x1 : (⟨S50000x256, .f32⟩ : BufTy).Contents (Elt Ideal))
    (x2 : (⟨S2x800000, .i32⟩ : BufTy).Contents (Elt Ideal)) (x3 : (⟨S512x128, .f32⟩ : BufTy).Contents (Elt Ideal))
    (x4 : (⟨S128, .f32⟩ : BufTy).Contents (Elt Ideal)) (x5 : (⟨S256x128, .f32⟩ : BufTy).Contents (Elt Ideal))
    (x6 : (⟨S128, .f32⟩ : BufTy).Contents (Elt Ideal))
    (v : Fin 50000) (k : Fin 128) :
    ReadP.val_main_v100 (F := Ideal) x0 x1 x2 x3 x4 x5 x6 (ix2 v k)
      = (act x0 x1 x2 x3 x4 x5 x6 v k - rowMax x0 x1 x2 x3 x4 x5 x6 v)
        - Ideal.log (0 + ∑ k' : Fin 128, Ideal.exp (act x0 x1 x2 x3 x4 x5 x6 v k' - rowMax x0 x1 x2 x3 x4 x5 x6 v)) := by
  rw [ReadP.val_main_v100_apply, val_main_call4_v5_at, ReadP.val_main_call4_v10_apply, ReadP.val_main_call4_v9_apply,
    ReadP.val_main_call4_v8_apply, ReadP.val_main_call4_v7_apply, ReadP.val_main_call4_cst_1_apply]
  have hs : ∀ k' : Fin 128,
      ReadP.val_main_call4_v6 (F := Ideal) x0 x1 x2 x3 x4 x5 x6
          (ReadP.idx_main_call4_v7 (ReadP.idx_main_call4_v8 (ReadP.idx_main_call4_v10 (ix2 v k))) k')
        = Ideal.exp (act x0 x1 x2 x3 x4 x5 x6 v k' - rowMax x0 x1 x2 x3 x4 x5 x6 v) := by
    intro k'
    rw [idx_sum, ReadP.val_main_call4_v6_apply, val_main_call4_v5_at, Ideal.hostUnary_exp_def]
  simp only [hs, Ideal.subf_def, Ideal.hostUnary_log_def, Ideal.ofBits_def, Ideal.ofBits_zero_f32]

/-- THE RESULT READ AT (v, k): the log-softmax of the row of summed rectified layers. -/
theorem val_main_v100_at (x0 : (⟨S50000x512, .f32⟩ : BufTy).Contents (Elt Ideal)) (x1 : (⟨S50000x256, .f32⟩ : BufTy).Contents (Elt Ideal))
    (x2 : (⟨S2x800000, .i32⟩ : BufTy).Contents (Elt Ideal)) (x3 : (⟨S512x128, .f32⟩ : BufTy).Contents (Elt Ideal))
    (x4 : (⟨S128, .f32⟩ : BufTy).Contents (Elt Ideal)) (x5 : (⟨S256x128, .f32⟩ : BufTy).Contents (Elt Ideal))
    (x6 : (⟨S128, .f32⟩ : BufTy).Contents (Elt Ideal))
    (v : Fin 50000) (k : Fin 128) :
    ReadP.val_main_v100 (F := Ideal) x0 x1 x2 x3 x4 x5 x6 (ix2 v k)
      = (act x0 x1 x2 x3 x4 x5 x6 v k - rowMax x0 x1 x2 x3 x4 x5 x6 v)
        - Ideal.log (∑ k' : Fin 128, Ideal.exp (act x0 x1 x2 x3 x4 x5 x6 v k' - rowMax x0 x1 x2 x3 x4 x5 x6 v)) := by
  rw [val_main_v100_at_raw, zero_add]

/-! ## The normalisation factor is a non-negative real -/

/-- First modality: where(deg > 0, rsqrt deg, 0) at node v is a non-negative real, whatever the degree. -/
theorem val_main_v20_nonneg (x2 : (⟨S2x800000, .i32⟩ : BufTy).Contents (Elt Ideal)) (v : Fin 50000) :
    ∃ δ : ℝ, 0 ≤ δ ∧ (ReadP.val_main_v20 (F := Ideal) x2 (ix1 v) : EReal) = (δ : EReal) := by
  rw [ReadP.val_main_v20_apply, ReadP.val_main_v18_apply, ReadP.val_main_v19_apply, ReadP.val_main_v17_apply,
    ReadP.val_main_cst_2_apply, ReadP.val_main_call0_v1_apply, ReadP.val_main_call0_v0_apply, ReadP.val_main_cst_3_apply]
  exact where_rsqrt_nonneg _

/-- Second modality (the program computes the factor again): the same. -/
theorem val_main_v66_nonneg (x2 : (⟨S2x800000, .i32⟩ : BufTy).Contents (Elt Ideal)) (v : Fin 50000) :
    ∃ δ : ℝ, 0 ≤ δ ∧ (ReadP.val_main_v66 (F := Ideal) x2 (ix1 v) : EReal) = (δ : EReal) := by
  rw [ReadP.val_main_v66_apply, ReadP.val_main_v64_apply, ReadP.val_main_v65_apply, ReadP.val_main_v63_apply,
    ReadP.val_main_cst_15_apply, ReadP.val_main_call2_v1_apply, ReadP.val_main_call2_v0_apply, ReadP.val_main_cst_16_apply]
  exact where_rsqrt_nonneg _

/-! ## The wrapped and the raw destination index agree in range -/

/-- The raw destination column reads the concatenated destination list at e. -/
theorem val_main_v47_at (x2 : (⟨S2x800000, .i32⟩ : BufTy).Contents (Elt Ideal)) (e : Fin 850000) :
    ReadP.val_main_v47 (F := Ideal) x2 (ix2 e (0 : Fin 1)) = ReadP.val_main_v6 (F := Ideal) x2 (ix1 e) := by
  rw [ReadP.val_main_v47_apply, idx_dst_raw]

/-- The wrapped destination column at e is select(dst < 0, dst + 50000, dst) of the same element. -/
theorem val_main_v33_at (x2 : (⟨S2x800000, .i32⟩ : BufTy).Contents (Elt Ideal)) (e : Fin 850000) :
    ReadP.val_main_v33 (F := Ideal) x2 (ix2 e (0 : Fin 1))
      = Scalar.select (IntOp.cmpi .slt (ReadP.val_main_v6 (F := Ideal) x2 (ix1 e)) 0#32)
          (IntOp.addi (ReadP.val_main_v6 (F := Ideal) x2 (ix1 e)) 50000#32) (ReadP.val_main_v6 (F := Ideal) x2 (ix1 e)) := by
  rw [ReadP.val_main_v33_apply, ReadP.val_main_v32_apply, ReadP.val_main_v29_apply, ReadP.val_main_v31_apply,
    ReadP.val_main_v28_apply, ReadP.val_main_c_6_apply, ReadP.val_main_v30_apply, ReadP.val_main_c_7_apply, idx_dst_wrapped]

/-- If the raw destination of edge e reads, signed, as the node number v, then the wrapped destination, read signed and
    clamped into [0, 49999] (as a gather or scatter reads its start index), is v. -/
theorem dst_wrapped_eq_of_raw (x2 : (⟨S2x800000, .i32⟩ : BufTy).Contents (Elt Ideal)) (e : Fin 850000) (v : Fin 50000)
    (h : (ReadP.val_main_v47 (F := Ideal) x2 (ix2 e (0 : Fin 1))).toInt = (v.val : Int)) :
    min (ReadP.val_main_v33 (F := Ideal) x2 (ix2 e (0 : Fin 1))).toInt.toNat (50000 - 1) = v.val := by
  rw [val_main_v47_at] at h
  rw [val_main_v33_at]
  exact wrap_clamp_of_toInt _ v.val v.isLt h

/-- The second modality's raw and wrapped destination columns are the same terms as the first's. -/
theorem val_main_v93_eq (x2 : (⟨S2x800000, .i32⟩ : BufTy).Contents (Elt Ideal)) :
    ReadP.val_main_v93 (F := Ideal) x2 = ReadP.val_main_v47 (F := Ideal) x2 := rfl
theorem val_main_v79_eq (x2 : (⟨S2x800000, .i32⟩ : BufTy).Contents (Elt Ideal)) :
    ReadP.val_main_v79 (F := Ideal) x2 = ReadP.val_main_v33 (F := Ideal) x2 := rfl

/-- The second modality recomputes the degree, the factor and the wrapped index columns: each is the same term as the first's. -/
theorem val_main_v62_eq (x2 : (⟨S2x800000, .i32⟩ : BufTy).Contents (Elt Ideal)) :
    ReadP.val_main_v62 (F := Ideal) x2 = ReadP.val_main_v16 (F := Ideal) x2 := rfl
theorem val_main_v66_eq (x2 : (⟨S2x800000, .i32⟩ : BufTy).Contents (Elt Ideal)) :
    ReadP.val_main_v66 (F := Ideal) x2 = ReadP.val_main_v20 (F := Ideal) x2 := rfl
theorem val_main_v72_eq (x2 : (⟨S2x800000, .i32⟩ : BufTy).Contents (Elt Ideal)) :
    ReadP.val_main_v72 (F := Ideal) x2 = ReadP.val_main_v26 (F := Ideal) x2 := rfl
theorem val_main_v87_eq (x2 : (⟨S2x800000, .i32⟩ : BufTy).Contents (Elt Ideal)) :
    ReadP.val_main_v87 (F := Ideal) x2 = ReadP.val_main_v41 (F := Ideal) x2 := rfl
theorem val_main_v81_eq (x2 : (⟨S2x800000, .i32⟩ : BufTy).Contents (Elt Ideal)) :
    ReadP.val_main_v81 (F := Ideal) x2 = ReadP.val_main_v35 (F := Ideal) x2 := rfl

/-- So the same holds of the second modality's copies. -/
theorem dst_wrapped_eq_of_raw2 (x2 : (⟨S2x800000, .i32⟩ : BufTy).Contents (Elt Ideal)) (e : Fin 850000) (v : Fin 50000)
    (h : (ReadP.val_main_v93 (F := Ideal) x2 (ix2 e (0 : Fin 1))).toInt = (v.val : Int)) :
    min (ReadP.val_main_v79 (F := Ideal) x2 (ix2 e (0 : Fin 1))).toInt.toNat (50000 - 1) = v.val := by
  rw [val_main_v93_eq] at h
  rw [val_main_v79_eq]
  exact dst_wrapped_eq_of_raw x2 e v h

end Cert.ReferenceIdeal.RefValue

end
-- ==== Proof.LibRowGatherScatter.lean ====
/-
  Rows taken and rows added: StableHLO's `gather` and accumulating float `scatter` for the dimension numbers
  that take whole rows of a matrix (or single entries of a vector) at a column of integer indices, read at one
  index, for arbitrary sizes. `N` is the number of rows of the operand, `M` the number of index entries and `C`
  the number of columns. The gather reads the operand's row at the index entry, read as a signed integer and
  clamped into `[0, N - 1]`; the scatter adds to row `v` every update row whose index entry, read as a signed
  integer and NOT clamped, equals `v` (an entry outside `[0, N - 1]` is dropped). Last, the one distributive law
  of the extended reals such a sum needs: multiplying a finite sum by a nonnegative real on the right.
-/
import Idealize.ShloMosaic.PureOps.Ideal
import Idealize.ShloMosaic.PureOps.Ideal.Laws
import Idealize.ShloMosaic.Lib.ValueIdx

noncomputable section

open scoped BigOperators

namespace Idealize.ShloMosaic.RowOps

open Idealize.ShloMosaic Idealize.ShloMosaic.ValueIdx

/-! ## `stablehlo.gather` taking rows of a matrix -/

section GatherRows
variable {α : Type}

/-- The dimension numbers of "take rows": operand `[N, C]`, start indices `[M, 1]`, result `[M, C]`; the result's
    axis 1 is the offset axis (a whole row of `C` entries is the slice), the operand's axis 0 is collapsed and is
    the one the start index addresses. The conditions `wf` are decided on a program's literal shapes. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: entry `k` of the operand's row number `idx[e, 0]`, the index read as a signed
    integer and clamped into `[0, N - 1]`. -/
theorem gather_row_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (k : Fin C) :
    Host.gather (rowGatherDims N M C wf) x idx (ix2 e k)
      = x (ix2 ⟨min (idx (ix2 e (0 : Fin 1))).toInt.toNat (N - 1), by omega⟩ k) := by
  unfold Host.gather
  congr 1
  funext a
  refine Fin.ext ?_
  match a with
  | ⟨0, _⟩ =>
    show (rowGatherDims N M C wf).start (ix2 e k) idx 0 + (rowGatherDims N M C wf).batchCoord (ix2 e k) 0
      + (rowGatherDims N M C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e k) ⟨List.idxOf (0 : Fin 2) (rowGatherDims N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N M C wf).start (ix2 e k) idx 1 + (rowGatherDims N M C wf).batchCoord (ix2 e k) 1
      + (rowGatherDims N M C wf).offCoord (ix2 e k) 1 = k.val
    rw [GatherDims.batchCoord_eq_zero _ _ _ List.not_mem_nil]
    unfold GatherDims.start
    rw [dif_neg (show (1 : Fin 2) ∉ (rowGatherDims N M C wf).startIndexMap from
      (by decide : (1 : Fin 2) ∉ ([0] : List (Fin 2))))]
    simp only [Nat.add_zero, Nat.zero_add]
    unfold GatherDims.offCoord
    rw [dif_pos (show (1 : Fin 2) ∈ (rowGatherDims N M C wf).sKept from
      (GatherDims.mem_sKept _ _).mpr ⟨(by decide : (1 : Fin 2) ∉ ([0] : List (Fin 2))), List.not_mem_nil⟩)]
    rfl

end GatherRows

/-! ## The accumulating float `stablehlo.scatter` adding rows to a matrix -/

section ScatterRows

/-- The dimension numbers of "add rows": operand `[N, C]`, scatter indices `[M, 1]`, updates `[M, C]`; the
    updates' axis 1 is the window axis (a whole row of `C` entries is the window), the operand's axis 0 is the
    inserted window axis and is the one the scatter index addresses. The conditions `wf` are decided on a
    program's literal shapes. -/
abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N M C w : Nat} (wf : ScatterDims.WF ⟨2, ![N, C]⟩ ⟨2, ![M, 1]⟩ ⟨2, ![M, C]⟩ [1] [0] [0] 1)

/-- On the row axis the window of update `(e, k')` starts at the scatter index `idx[e, 0]`, read as a signed
    integer. -/
theorem rowScatter_start0 (idx : IVec ⟨2, ![M, 1]⟩ w) (e : Fin M) (k' : Fin C) :
    (rowScatterDims N M C wf).start (ix2 e k') idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e k')
      ⟨List.idxOf (0 : Fin 2) (rowScatterDims N M C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at `0`: the scatter index does not address it. -/
theorem rowScatter_start1 (idx : IVec ⟨2, ![M, 1]⟩ w) (e : Fin M) (k' : Fin C) :
    (rowScatterDims N M C wf).start (ix2 e k') idx 1 = 0 := by
  unfold ScatterDims.start
  rw [dif_neg (show (1 : Fin 2) ∉ (rowScatterDims N M C wf).scatterDimsToOperandDims from
    (by decide : (1 : Fin 2) ∉ ([0] : List (Fin 2))))]

/-- The row axis is inserted: the window coordinate there is `0`. -/
theorem rowScatter_window0 (e : Fin M) (k' : Fin C) : (rowScatterDims N M C wf).window (ix2 e k') 0 = 0 := by
  unfold ScatterDims.window
  rw [dif_neg]
  intro h
  have h' : (0 : Fin 2) ∈ (List.finRange 2).filter (fun a => a ∉ ([0] : List (Fin 2))) := h
  exact absurd h' (by decide)

/-- On the column axis the window coordinate of update `(e, k')` is its column `k'`. -/
theorem rowScatter_window1 (e : Fin M) (k' : Fin C) : (rowScatterDims N M C wf).window (ix2 e k') 1 = k'.val := by
  unfold ScatterDims.window
  rw [dif_pos (show (1 : Fin 2) ∈ (rowScatterDims N M C wf).sKept from
    (by decide : (1 : Fin 2) ∈ (List.finRange 2).filter (fun a => a ∉ ([0] : List (Fin 2)))))]
  rfl

/-- WHERE AN UPDATE LANDS: update `(e, k')` lands at operand element `(v, k)` exactly when its scatter index
    `idx[e, 0]`, read as a signed integer (not clamped), is `v` and its column is `k`. -/
theorem rowScatter_resultIdx_eq_some (idx : IVec ⟨2, ![M, 1]⟩ w) (e : Fin M) (k' k : Fin C) (v : Fin N) :
    (rowScatterDims N M C wf).resultIdx? (ix2 e k') idx = some (ix2 v k)
      ↔ (idx (ix2 e (0 : Fin 1))).toInt = (v.val : Int) ∧ k' = k := by
  have hv : (v.val : Int) < (N : Int) := by exact_mod_cast v.isLt
  have hk : (k'.val : Int) < (C : Int) := by exact_mod_cast k'.isLt
  unfold ScatterDims.resultIdx?
  constructor
  · intro h
    split at h
    · rename_i hin
      have hf := Option.some.inj h
      have h0 := congrArg Fin.val (congrFun hf 0)
      have h1 := congrArg Fin.val (congrFun hf 1)
      have hin0 := (hin 0).1
      simp only [rowScatter_start0, rowScatter_start1, rowScatter_window0, rowScatter_window1] at h0 h1 hin0
      refine ⟨?_, Fin.ext ?_⟩
      · change ((idx (ix2 e (0 : Fin 1))).toInt + ((0 : Nat) : Int)).toNat = v.val at h0
        omega
      · change ((0 : Int) + (k'.val : Int)).toNat = k.val at h1
        omega
    · exact absurd h (by simp)
  · rintro ⟨hi, rfl⟩
    have hin : ∀ a, 0 ≤ (rowScatterDims N M C wf).start (ix2 e k') idx a + (rowScatterDims N M C wf).window (ix2 e k') a ∧
        (rowScatterDims N M C wf).start (ix2 e k') idx a + (rowScatterDims N M C wf).window (ix2 e k') a
          < (⟨2, ![N, C]⟩ : Shape).size a := by
      intro a
      match a with
      | ⟨0, _⟩ =>
        show 0 ≤ (rowScatterDims N M C wf).start (ix2 e k') idx 0 + (rowScatterDims N M C wf).window (ix2 e k') 0 ∧
          (rowScatterDims N M C wf).start (ix2 e k') idx 0 + (rowScatterDims N M C wf).window (ix2 e k') 0 < (N : Int)
        rw [rowScatter_start0, rowScatter_window0, hi]
        constructor <;> omega
      | ⟨1, _⟩ =>
        show 0 ≤ (rowScatterDims N M C wf).start (ix2 e k') idx 1 + (rowScatterDims N M C wf).window (ix2 e k') 1 ∧
          (rowScatterDims N M C wf).start (ix2 e k') idx 1 + (rowScatterDims N M C wf).window (ix2 e k') 1 < (C : Int)
        rw [rowScatter_start1, rowScatter_window1]
        constructor <;> omega
    rw [dif_pos hin]
    congr 1
    funext a
    refine Fin.ext ?_
    match a with
    | ⟨0, _⟩ =>
      show ((rowScatterDims N M C wf).start (ix2 e k') idx 0 + (rowScatterDims N M C wf).window (ix2 e k') 0).toNat = v.val
      rw [rowScatter_start0, rowScatter_window0, hi]
      omega
    | ⟨1, _⟩ =>
      show ((rowScatterDims N M C wf).start (ix2 e k') idx 1 + (rowScatterDims N M C wf).window (ix2 e k') 1).toNat = k'.val
      rw [rowScatter_start1, rowScatter_window1]
      omega

end ScatterRows

section ScatterRowsSum
variable {N M C w : Nat} (wf : ScatterDims.WF ⟨2, ![N, C]⟩ ⟨2, ![M, 1]⟩ ⟨2, ![M, C]⟩ [1] [0] [0] 1)

/-- THE ROW SCATTER-ADD READ AT `(v, k)`, at the ideal values: the operand's element plus the sum, over the index
    entries `e` whose scatter index `idx[e, 0]` (read as a signed integer, not clamped) is `v`, of entry `k` of
    update row `e`. The updates landing at `(v, k)` are exactly the `(e, k)` with `idx[e, 0] = v`
    (`rowScatter_resultIdx_eq_some`), and `e ↦ (e, k)` re-indexes the sum. -/
theorem scatterAdd_row_apply (x : (⟨2, ![N, C]⟩ : Shape).Idx → EReal) (idx : IVec ⟨2, ![M, 1]⟩ w)
    (upd : (⟨2, ![M, C]⟩ : Shape).Idx → EReal) (v : Fin N) (k : Fin C) :
    Ideal.hostScatterAdd (rowScatterDims N M C wf) x idx upd (ix2 v k)
      = x (ix2 v k) + ∑ e ∈ Finset.univ.filter (fun e : Fin M => (idx (ix2 e (0 : Fin 1))).toInt = (v.val : Int)),
          upd (ix2 e k) := by
  unfold Ideal.hostScatterAdd
  congr 1
  refine Finset.sum_nbij' (fun j => (⟨(j 0).val, idx2_lt0 j⟩ : Fin M)) (fun e => ix2 e k) ?_ ?_ ?_ ?_ ?_
  · intro j hj
    obtain ⟨a, b, rfl⟩ : ∃ (a : Fin M) (b : Fin C), j = ix2 a b := ⟨_, _, eq_ix2 j⟩
    rw [Finset.mem_filter] at hj ⊢
    exact ⟨Finset.mem_univ _, ((rowScatter_resultIdx_eq_some wf idx a b k v).mp hj.2).1⟩
  · intro e he
    rw [Finset.mem_filter] at he ⊢
    exact ⟨Finset.mem_univ _, (rowScatter_resultIdx_eq_some wf idx e k k v).mpr ⟨he.2, rfl⟩⟩
  · intro j hj
    obtain ⟨a, b, rfl⟩ : ∃ (a : Fin M) (b : Fin C), j = ix2 a b := ⟨_, _, eq_ix2 j⟩
    rw [Finset.mem_filter] at hj
    obtain ⟨_, rfl⟩ := (rowScatter_resultIdx_eq_some wf idx a b k v).mp hj.2
    rfl
  · intro e _
    rfl
  · intro j hj
    obtain ⟨a, b, rfl⟩ : ∃ (a : Fin M) (b : Fin C), j = ix2 a b := ⟨_, _, eq_ix2 j⟩
    rw [Finset.mem_filter] at hj
    obtain ⟨_, rfl⟩ := (rowScatter_resultIdx_eq_some wf idx a b k v).mp hj.2
    rfl

/-- The same through the program's operation: `Host.scatterAdd` at the ideal values is `Ideal.hostScatterAdd`. -/
theorem host_scatterAdd_row_apply {φ : FTy} (x : FVec Ideal ⟨2, ![N, C]⟩ φ) (idx : IVec ⟨2, ![M, 1]⟩ w)
    (upd : FVec Ideal ⟨2, ![M, C]⟩ φ) (v : Fin N) (k : Fin C) :
    Host.scatterAdd (F := Ideal) (rowScatterDims N M C wf) x idx upd (ix2 v k)
      = x (ix2 v k) + ∑ e ∈ Finset.univ.filter (fun e : Fin M => (idx (ix2 e (0 : Fin 1))).toInt = (v.val : Int)),
          upd (ix2 e k) :=
  scatterAdd_row_apply wf x idx upd v k

end ScatterRowsSum

/-! ## Multiplying a finite sum of extended reals by a nonnegative real -/

section Distrib

/-- On the extended reals multiplication does not distribute over addition in general (`⊤ + ⊥ = ⊥`), but it does
    for a factor that is a NONNEGATIVE REAL: `(x + y) * δ = x * δ + y * δ`. Hence a finite sum of products times
    such a `δ` is the sum of the products with `δ` moved onto the second factor (multiplication itself is
    associative everywhere). -/
theorem sum_mul_mul_coe_of_nonneg {ι : Type*} (s : Finset ι) (a p : ι → EReal) {δ : ℝ} (hδ : 0 ≤ δ) :
    (∑ e ∈ s, a e * p e) * (δ : EReal) = ∑ e ∈ s, a e * (p e * (δ : EReal)) := by
  classical
  induction s using Finset.induction_on with
  | empty => simp
  | insert i s hi ih =>
    rw [Finset.sum_insert hi, Finset.sum_insert hi, ← ih, ← mul_assoc]
    exact EReal.right_distrib_of_nonneg_of_ne_top (EReal.coe_nonneg.mpr hδ) (EReal.coe_ne_top δ) _ _

end Distrib

/-! ## `stablehlo.gather` taking entries of a vector -/

section GatherEntries
variable {α : Type}

/-- The dimension numbers of "take entries": operand `[N]`, start indices `[M, 1]`, result `[M]`; no offset axis
    (the slice is one entry), the operand's one axis is collapsed and is the one the start index addresses. The
    conditions `wf` are decided on a program's literal shapes. -/
abbrev vecGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE ENTRY GATHER READ AT `e`: the operand's entry number `idx[e, 0]`, the index read as a signed integer and
    clamped into `[0, N - 1]`. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecGatherDims N M wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecGatherDims N M wf).start (ix1 e) idx 0 + (vecGatherDims N M wf).batchCoord (ix1 e) 0
    + (vecGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N M wf).startIndexMap from List.mem_singleton.mpr rfl)]
  have hsi : (vecGatherDims N M wf).siIdx (ix1 e) ⟨List.idxOf (0 : Fin 1) (vecGatherDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end GatherEntries

/-! ## The accumulating float `stablehlo.scatter` adding entries to a vector -/

section ScatterEntries

/-- The dimension numbers of "add entries": operand `[N]`, scatter indices `[M, 1]`, updates `[M]`; no window axis
    (the window is one entry), the operand's one axis is the inserted window axis and is the one the scatter index
    addresses. The conditions `wf` are decided on a program's literal shapes. -/
abbrev vecScatterDims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- The window of update `e` starts at the scatter index `idx[e, 0]`, read as a signed integer. -/
theorem vecScatter_start0 (idx : IVec ⟨2, ![M, 1]⟩ w) (e : Fin M) :
    (vecScatterDims N M wf).start (ix1 e) idx 0 = (idx (ix2 e (0 : Fin 1))).toInt := by
  unfold ScatterDims.start
  rw [dif_pos (show (0 : Fin 1) ∈ (vecScatterDims N M wf).scatterDimsToOperandDims from List.mem_singleton.mpr rfl)]
  have hsi : (vecScatterDims N M wf).siIdx (ix1 e)
      ⟨List.idxOf (0 : Fin 1) (vecScatterDims N M wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: the window coordinate there is `0`. -/
theorem vecScatter_window0 (e : Fin M) : (vecScatterDims N M wf).window (ix1 e) 0 = 0 := by
  unfold ScatterDims.window
  rw [dif_neg]
  intro h
  have h' : (0 : Fin 1) ∈ (List.finRange 1).filter (fun a => a ∉ ([0] : List (Fin 1))) := h
  exact absurd h' (by decide)

/-- WHERE AN UPDATE LANDS: update `e` lands at operand entry `v` exactly when its scatter index `idx[e, 0]`, read
    as a signed integer (not clamped), is `v`. -/
theorem vecScatter_resultIdx_eq_some (idx : IVec ⟨2, ![M, 1]⟩ w) (e : Fin M) (v : Fin N) :
    (vecScatterDims N M wf).resultIdx? (ix1 e) idx = some (ix1 v)
      ↔ (idx (ix2 e (0 : Fin 1))).toInt = (v.val : Int) := by
  have hv : (v.val : Int) < (N : Int) := by exact_mod_cast v.isLt
  unfold ScatterDims.resultIdx?
  constructor
  · intro h
    split at h
    · rename_i hin
      have hf := Option.some.inj h
      have h0 := congrArg Fin.val (congrFun hf 0)
      have hin0 := (hin 0).1
      simp only [vecScatter_start0, vecScatter_window0] at h0 hin0
      change ((idx (ix2 e (0 : Fin 1))).toInt + ((0 : Nat) : Int)).toNat = v.val at h0
      omega
    · exact absurd h (by simp)
  · intro hi
    have hin : ∀ a, 0 ≤ (vecScatterDims N M wf).start (ix1 e) idx a + (vecScatterDims N M wf).window (ix1 e) a ∧
        (vecScatterDims N M wf).start (ix1 e) idx a + (vecScatterDims N M wf).window (ix1 e) a
          < (⟨1, ![N]⟩ : Shape).size a := by
      intro a
      obtain rfl : a = 0 := Subsingleton.elim _ _
      show 0 ≤ (vecScatterDims N M wf).start (ix1 e) idx 0 + (vecScatterDims N M wf).window (ix1 e) 0 ∧
        (vecScatterDims N M wf).start (ix1 e) idx 0 + (vecScatterDims N M wf).window (ix1 e) 0 < (N : Int)
      rw [vecScatter_start0, vecScatter_window0, hi]
      constructor <;> omega
    rw [dif_pos hin]
    congr 1
    funext a
    obtain rfl : a = 0 := Subsingleton.elim _ _
    refine Fin.ext ?_
    show ((vecScatterDims N M wf).start (ix1 e) idx 0 + (vecScatterDims N M wf).window (ix1 e) 0).toNat = v.val
    rw [vecScatter_start0, vecScatter_window0, hi]
    omega

/-- THE ENTRY SCATTER-ADD READ AT `v`, at the ideal values: the operand's entry plus the sum of the updates `e`
    whose scatter index `idx[e, 0]` (read as a signed integer, not clamped) is `v`. -/
theorem scatterAdd_vec_apply (x : (⟨1, ![N]⟩ : Shape).Idx → EReal) (idx : IVec ⟨2, ![M, 1]⟩ w)
    (upd : (⟨1, ![M]⟩ : Shape).Idx → EReal) (v : Fin N) :
    Ideal.hostScatterAdd (vecScatterDims N M wf) x idx upd (ix1 v)
      = x (ix1 v) + ∑ e ∈ Finset.univ.filter (fun e : Fin M => (idx (ix2 e (0 : Fin 1))).toInt = (v.val : Int)),
          upd (ix1 e) := by
  unfold Ideal.hostScatterAdd
  congr 1
  refine Finset.sum_nbij' (fun j => (⟨(j 0).val, (j 0).isLt⟩ : Fin M)) (fun e => ix1 e) ?_ ?_ ?_ ?_ ?_
  · intro j hj
    obtain ⟨a, rfl⟩ : ∃ (a : Fin M), j = ix1 a := ⟨_, eq_ix1 j⟩
    rw [Finset.mem_filter] at hj ⊢
    exact ⟨Finset.mem_univ _, (vecScatter_resultIdx_eq_some wf idx a v).mp hj.2⟩
  · intro e he
    rw [Finset.mem_filter] at he ⊢
    exact ⟨Finset.mem_univ _, (vecScatter_resultIdx_eq_some wf idx e v).mpr he.2⟩
  · intro j _
    obtain ⟨a, rfl⟩ : ∃ (a : Fin M), j = ix1 a := ⟨_, eq_ix1 j⟩
    rfl
  · intro e _
    rfl
  · intro j _
    obtain ⟨a, rfl⟩ : ∃ (a : Fin M), j = ix1 a := ⟨_, eq_ix1 j⟩
    rfl

/-- The same through the program's operation: `Host.scatterAdd` at the ideal values is `Ideal.hostScatterAdd`. -/
theorem host_scatterAdd_vec_apply {φ : FTy} (x : FVec Ideal ⟨1, ![N]⟩ φ) (idx : IVec ⟨2, ![M, 1]⟩ w)
    (upd : FVec Ideal ⟨1, ![M]⟩ φ) (v : Fin N) :
    Host.scatterAdd (F := Ideal) (vecScatterDims N M wf) x idx upd (ix1 v)
      = x (ix1 v) + ∑ e ∈ Finset.univ.filter (fun e : Fin M => (idx (ix2 e (0 : Fin 1))).toInt = (v.val : Int)),
          upd (ix1 e) :=
  scatterAdd_vec_apply wf x idx upd v

end ScatterEntries

end Idealize.ShloMosaic.RowOps

end
-- ==== Proof.BridgeAgg.lean ====
/-
  The one algebraic law of this certificate, at the level of the two accumulating scatters. A node's aggregate is
  the sum, over the edges arriving at it, of the source node's projected row; one program scales the projection by
  the source's factor before the rows are taken and the aggregate by the destination's factor afterwards, the
  other scales each edge's row by the product of the two factors. Since every factor is a nonnegative real,
  multiplying the finite sum by the destination's factor distributes over it, and on the edges arriving at node
  `v` the destination's factor is `v`'s own.
-/
import proofs.«130880_j36335423324414_2_alg».proof.Proof.LibRowGatherScatter

noncomputable section

open scoped BigOperators

namespace Cert.Bridge

open Idealize.ShloMosaic Idealize.ShloMosaic.ValueIdx Idealize.ShloMosaic.RowOps

/-- The row a gather reads for index entry `e`: the entry read as a signed integer and clamped into `[0, 49999]`. -/
def clamp (idx : IVec ⟨2, ![850000, 1]⟩ 32) (e : Fin 850000) : Fin 50000 :=
  ⟨min (idx (ix2 e (0 : Fin 1))).toInt.toNat (50000 - 1), by omega⟩

section Law
variable (wfS : ScatterDims.WF ⟨2, ![50000, 256]⟩ ⟨2, ![850000, 1]⟩ ⟨2, ![850000, 256]⟩ [1] [0] [0] 1)
  (wfG : GatherDims.WF ⟨2, ![50000, 256]⟩ ⟨2, ![850000, 1]⟩ ⟨2, ![850000, 256]⟩ [1] [0] [] [0] [] 1 ![1, 256])
  (P z256 : FVec Ideal ⟨2, ![50000, 256]⟩ .f32) (xw1 xw2 : FVec Ideal ⟨2, ![50000, 128]⟩ .f32)
  (D : FVec Ideal ⟨1, ![50000]⟩ .f32) (iS iDw iDr : IVec ⟨2, ![850000, 1]⟩ 32)

/-- THE LAW AT ONE COLUMN `c` of the side-by-side projections, whose entries are `xw (r, k) * D r`: the scatter of
    the gathered rows into zeros, read at `(v, c)` and scaled by `D v`, is the sum over the edges `e` arriving at `v`
    of `xw (src e, k) * (D (src e) * D (dst e))`. The scatter at `(v, c)` is `0` plus the sum over those edges of the
    gathered entries; each gathered entry is the projection's at the clamped source row; the factor `D v` is a
    nonnegative real, so it distributes over the sum; and on an edge arriving at `v` the clamped destination row is
    `v`. -/
theorem agg_col (hz : ∀ i, z256 i = Ideal.ofBits .f32 0x00000000#32)
    (hD : ∀ r : Fin 50000, ∃ δ : ℝ, 0 ≤ δ ∧ D (ix1 r) = (δ : EReal))
    (hwrap : ∀ (e : Fin 850000) (v : Fin 50000), (iDr (ix2 e (0 : Fin 1))).toInt = (v.val : Int) →
      min (iDw (ix2 e (0 : Fin 1))).toInt.toNat (50000 - 1) = v.val)
    (xw : FVec Ideal ⟨2, ![50000, 128]⟩ .f32) (c : Fin 256) (k : Fin 128)
    (hP : ∀ r : Fin 50000, P (ix2 r c) = xw (ix2 r k) * D (ix1 r)) (v : Fin 50000) :
    Host.scatterAdd (F := Ideal) (rowScatterDims 50000 850000 256 wfS) z256 iDr
        (Host.gather (rowGatherDims 50000 850000 256 wfG) P iS) (ix2 v c) * D (ix1 v)
      = Ideal.ofBits .f32 0x00000000#32
        + ∑ e ∈ Finset.univ.filter (fun e : Fin 850000 => (iDr (ix2 e (0 : Fin 1))).toInt = (v.val : Int)),
            xw (ix2 (clamp iS e) k) * (D (ix1 (clamp iS e)) * D (ix1 (clamp iDw e))) := by
  obtain ⟨δ, hδ, hDv⟩ := hD v
  have hg : ∀ e : Fin 850000, Host.gather (rowGatherDims 50000 850000 256 wfG) P iS (ix2 e c)
      = xw (ix2 (clamp iS e) k) * D (ix1 (clamp iS e)) := fun e => by
    rw [gather_row_apply (by omega) wfG P iS e c]
    exact hP (clamp iS e)
  rw [host_scatterAdd_row_apply wfS z256 iDr _ v c, hz, Ideal.ofBits_zero_f32, zero_add, zero_add, hDv,
    Finset.sum_congr rfl (fun e _ => hg e), sum_mul_mul_coe_of_nonneg _ _ _ hδ]
  refine Finset.sum_congr rfl fun e he => ?_
  have hv : clamp iDw e = v := Fin.ext (hwrap e v (Finset.mem_filter.mp he).2)
  rw [hv, hDv]

variable (hz : ∀ i, z256 i = Ideal.ofBits .f32 0x00000000#32)
  (hlo : ∀ (r : Fin 50000) (k : Fin 128),
    P (ix2 r (⟨k.val, by have := k.isLt; omega⟩ : Fin 256)) = xw1 (ix2 r k) * D (ix1 r))
  (hhi : ∀ (r : Fin 50000) (k : Fin 128),
    P (ix2 r (⟨128 + k.val, by have := k.isLt; omega⟩ : Fin 256)) = xw2 (ix2 r k) * D (ix1 r))
  (hD : ∀ r : Fin 50000, ∃ δ : ℝ, 0 ≤ δ ∧ D (ix1 r) = (δ : EReal))
  (hwrap : ∀ (e : Fin 850000) (v : Fin 50000), (iDr (ix2 e (0 : Fin 1))).toInt = (v.val : Int) →
    min (iDw (ix2 e (0 : Fin 1))).toInt.toNat (50000 - 1) = v.val)

include hz hlo hD hwrap in
/-- The law on the first modality's 128 columns (columns `0 … 127` of the side-by-side projections). -/
theorem agg_lo (v : Fin 50000) (k : Fin 128) :
    Host.scatterAdd (F := Ideal) (rowScatterDims 50000 850000 256 wfS) z256 iDr
        (Host.gather (rowGatherDims 50000 850000 256 wfG) P iS)
        (ix2 v (⟨k.val, by have := k.isLt; omega⟩ : Fin 256)) * D (ix1 v)
      = Ideal.ofBits .f32 0x00000000#32
        + ∑ e ∈ Finset.univ.filter (fun e : Fin 850000 => (iDr (ix2 e (0 : Fin 1))).toInt = (v.val : Int)),
            xw1 (ix2 (clamp iS e) k) * (D (ix1 (clamp iS e)) * D (ix1 (clamp iDw e))) :=
  agg_col wfS wfG P z256 D iS iDw iDr hz hD hwrap xw1 _ k (fun r => hlo r k) v

include hz hhi hD hwrap in
/-- The law on the second modality's 128 columns (columns `128 … 255` of the side-by-side projections). -/
theorem agg_hi (v : Fin 50000) (k : Fin 128) :
    Host.scatterAdd (F := Ideal) (rowScatterDims 50000 850000 256 wfS) z256 iDr
        (Host.gather (rowGatherDims 50000 850000 256 wfG) P iS)
        (ix2 v (⟨128 + k.val, by have := k.isLt; omega⟩ : Fin 256)) * D (ix1 v)
      = Ideal.ofBits .f32 0x00000000#32
        + ∑ e ∈ Finset.univ.filter (fun e : Fin 850000 => (iDr (ix2 e (0 : Fin 1))).toInt = (v.val : Int)),
            xw2 (ix2 (clamp iS e) k) * (D (ix1 (clamp iS e)) * D (ix1 (clamp iDw e))) :=
  agg_col wfS wfG P z256 D iS iDw iDr hz hD hwrap xw2 _ k (fun r => hhi r k) v

end Law

end Cert.Bridge

end
-- ==== Proof.RefAgg.lean ====
/-
  The reference's aggregated messages read at an index.

  For a node v and a channel k the reference's scatter-add leaves
      0 + the sum over the edges e whose raw destination word is v of
            (x W)[src e, k] * (dinv[src e] * dinv[dst e]),
  where `src e`, `dst e` are the wrapped index words read signed and clamped into [0, 49999] (what a gather does
  with a start index) and dinv is the per-node factor.  The same for the second modality.
-/
import proofs.«130880_j36335423324414_2_alg».proof.Proof.RefReadP
import proofs.«130880_j36335423324414_2_alg».proof.Proof.BridgeAgg

set_option maxRecDepth 16384

noncomputable section

namespace Cert.ReferenceIdeal.RefAgg

open Cert.ReferenceIdeal Cert.ReferenceIdeal.Gen Idealize.ShloMosaic Idealize.ShloMosaic.TcCoe Idealize.SL.Sem
open Idealize.ShloMosaic.ValueIdx Idealize.ShloMosaic.RowOps Cert.Bridge

theorem idx_col (e : Fin 850000) (k : Fin 128) : ReadP.idx_main_v43 (ReadP.idx_main_v44 (ix2 e k)) = ix1 e := by
  funext a; match a with | ⟨0, _⟩ => rfl
theorem idx_col2 (e : Fin 850000) (k : Fin 128) : ReadP.idx_main_v89 (ReadP.idx_main_v90 (ix2 e k)) = ix1 e := by
  funext a; match a with | ⟨0, _⟩ => rfl

variable (x0 : (⟨S50000x512, .f32⟩ : BufTy).Contents (Elt Ideal)) (x1 : (⟨S50000x256, .f32⟩ : BufTy).Contents (Elt Ideal))
  (x2 : (⟨S2x800000, .i32⟩ : BufTy).Contents (Elt Ideal)) (x3 : (⟨S512x128, .f32⟩ : BufTy).Contents (Elt Ideal))
  (x5 : (⟨S256x128, .f32⟩ : BufTy).Contents (Elt Ideal))

/-- One message of the first modality: the gathered row entry times the product of the two gathered factors. -/
theorem msg1_at (e : Fin 850000) (k : Fin 128) :
    ReadP.val_main_v45 (F := Ideal) x0 x2 x3 (ix2 e k)
      = ReadP.val_main_v7 (F := Ideal) x0 x3 (ix2 (clamp (ReadP.val_main_v41 (F := Ideal) x2) e) k)
        * (ReadP.val_main_v20 (F := Ideal) x2 (ix1 (clamp (ReadP.val_main_v41 (F := Ideal) x2) e))
          * ReadP.val_main_v20 (F := Ideal) x2 (ix1 (clamp (ReadP.val_main_v33 (F := Ideal) x2) e))) := by
  rw [ReadP.val_main_v45_apply, ReadP.val_main_v44_apply, ReadP.val_main_v43_apply, idx_col, ReadP.val_main_v35_apply]
  unfold ReadP.val_main_v42 ReadP.val_main_v27 ReadP.val_main_v34
  rw [show ReadP.val_main_v26 (F := Ideal) x2 = ReadP.val_main_v41 (F := Ideal) x2 from rfl]
  have g1 : Host.gather gather_S50000x128_S850000x1_S850000x128_1_0_n_n_0_1_1128 (ReadP.val_main_v7 (F := Ideal) x0 x3) (ReadP.val_main_v41 (F := Ideal) x2) (ix2 e k)
      = ReadP.val_main_v7 (F := Ideal) x0 x3 (ix2 (clamp (ReadP.val_main_v41 (F := Ideal) x2) e) k) :=
    gather_row_apply (by omega) _ _ _ e k
  have g2 : Host.gather gather_S50000_S850000x1_S850000_n_0_n_n_0_1_1 (ReadP.val_main_v20 (F := Ideal) x2) (ReadP.val_main_v41 (F := Ideal) x2) (ix1 e)
      = ReadP.val_main_v20 (F := Ideal) x2 (ix1 (clamp (ReadP.val_main_v41 (F := Ideal) x2) e)) :=
    gather_vec_apply (by omega) _ _ _ e
  have g3 : Host.gather gather_S50000_S850000x1_S850000_n_0_n_n_0_1_1 (ReadP.val_main_v20 (F := Ideal) x2) (ReadP.val_main_v33 (F := Ideal) x2) (ix1 e)
      = ReadP.val_main_v20 (F := Ideal) x2 (ix1 (clamp (ReadP.val_main_v33 (F := Ideal) x2) e)) :=
    gather_vec_apply (by omega) _ _ _ e
  rw [g1, g2, g3]
  rfl

/-- The first modality's aggregated messages at (v, k). -/
theorem agg1_at (v : Fin 50000) (k : Fin 128) :
    ReadP.val_main_v48 (F := Ideal) x0 x2 x3 (ix2 v k)
      = Ideal.ofBits .f32 0x00000000#32
        + ∑ e ∈ Finset.univ.filter (fun e : Fin 850000 => (ReadP.val_main_v47 (F := Ideal) x2 (ix2 e (0 : Fin 1))).toInt = (v.val : Int)),
            ReadP.val_main_v7 (F := Ideal) x0 x3 (ix2 (clamp (ReadP.val_main_v41 (F := Ideal) x2) e) k)
              * (ReadP.val_main_v20 (F := Ideal) x2 (ix1 (clamp (ReadP.val_main_v41 (F := Ideal) x2) e))
                * ReadP.val_main_v20 (F := Ideal) x2 (ix1 (clamp (ReadP.val_main_v33 (F := Ideal) x2) e))) := by
  unfold ReadP.val_main_v48
  refine (host_scatterAdd_row_apply _ (ReadP.val_main_v46 (F := Ideal)) (ReadP.val_main_v47 (F := Ideal) x2)
    (ReadP.val_main_v45 (F := Ideal) x0 x2 x3) v k).trans ?_
  rw [ReadP.val_main_v46_apply, ReadP.val_main_cst_10_apply]
  refine congrArg (_ + ·) (Finset.sum_congr rfl fun e _ => ?_)
  exact msg1_at x0 x2 x3 e k

/-! ## The second modality, and the repeated terms identified -/

/-- The reference recomputes the wrapped source indices, the wrapped and the raw destination indices and the per-node
    factor once per use; each copy is the same operations of the same argument. -/
theorem v26_eq : ReadP.val_main_v26 (F := Ideal) x2 = ReadP.val_main_v41 (F := Ideal) x2 := rfl
theorem v72_eq : ReadP.val_main_v72 (F := Ideal) x2 = ReadP.val_main_v41 (F := Ideal) x2 := rfl
theorem v87_eq : ReadP.val_main_v87 (F := Ideal) x2 = ReadP.val_main_v41 (F := Ideal) x2 := rfl
theorem v79_eq : ReadP.val_main_v79 (F := Ideal) x2 = ReadP.val_main_v33 (F := Ideal) x2 := rfl
theorem v93_eq : ReadP.val_main_v93 (F := Ideal) x2 = ReadP.val_main_v47 (F := Ideal) x2 := rfl
theorem v66_eq : ReadP.val_main_v66 (F := Ideal) x2 = ReadP.val_main_v20 (F := Ideal) x2 := rfl

/-- One message of the second modality. -/
theorem msg2_at (e : Fin 850000) (k : Fin 128) :
    ReadP.val_main_v91 (F := Ideal) x1 x2 x5 (ix2 e k)
      = ReadP.val_main_v53 (F := Ideal) x1 x5 (ix2 (clamp (ReadP.val_main_v41 (F := Ideal) x2) e) k)
        * (ReadP.val_main_v20 (F := Ideal) x2 (ix1 (clamp (ReadP.val_main_v41 (F := Ideal) x2) e))
          * ReadP.val_main_v20 (F := Ideal) x2 (ix1 (clamp (ReadP.val_main_v33 (F := Ideal) x2) e))) := by
  rw [ReadP.val_main_v91_apply, ReadP.val_main_v90_apply, ReadP.val_main_v89_apply, idx_col2, ReadP.val_main_v81_apply]
  unfold ReadP.val_main_v88 ReadP.val_main_v73 ReadP.val_main_v80
  rw [v87_eq, v72_eq, v79_eq, v66_eq]
  have g1 : Host.gather gather_S50000x128_S850000x1_S850000x128_1_0_n_n_0_1_1128 (ReadP.val_main_v53 (F := Ideal) x1 x5) (ReadP.val_main_v41 (F := Ideal) x2) (ix2 e k)
      = ReadP.val_main_v53 (F := Ideal) x1 x5 (ix2 (clamp (ReadP.val_main_v41 (F := Ideal) x2) e) k) :=
    gather_row_apply (by omega) _ _ _ e k
  have g2 : Host.gather gather_S50000_S850000x1_S850000_n_0_n_n_0_1_1 (ReadP.val_main_v20 (F := Ideal) x2) (ReadP.val_main_v41 (F := Ideal) x2) (ix1 e)
      = ReadP.val_main_v20 (F := Ideal) x2 (ix1 (clamp (ReadP.val_main_v41 (F := Ideal) x2) e)) :=
    gather_vec_apply (by omega) _ _ _ e
  have g3 : Host.gather gather_S50000_S850000x1_S850000_n_0_n_n_0_1_1 (ReadP.val_main_v20 (F := Ideal) x2) (ReadP.val_main_v33 (F := Ideal) x2) (ix1 e)
      = ReadP.val_main_v20 (F := Ideal) x2 (ix1 (clamp (ReadP.val_main_v33 (F := Ideal) x2) e)) :=
    gather_vec_apply (by omega) _ _ _ e
  rw [g1, g2, g3]
  rfl

/-- The second modality's aggregated messages at (v, k). -/
theorem agg2_at (v : Fin 50000) (k : Fin 128) :
    ReadP.val_main_v94 (F := Ideal) x1 x2 x5 (ix2 v k)
      = Ideal.ofBits .f32 0x00000000#32
        + ∑ e ∈ Finset.univ.filter (fun e : Fin 850000 => (ReadP.val_main_v47 (F := Ideal) x2 (ix2 e (0 : Fin 1))).toInt = (v.val : Int)),
            ReadP.val_main_v53 (F := Ideal) x1 x5 (ix2 (clamp (ReadP.val_main_v41 (F := Ideal) x2) e) k)
              * (ReadP.val_main_v20 (F := Ideal) x2 (ix1 (clamp (ReadP.val_main_v41 (F := Ideal) x2) e))
                * ReadP.val_main_v20 (F := Ideal) x2 (ix1 (clamp (ReadP.val_main_v33 (F := Ideal) x2) e))) := by
  unfold ReadP.val_main_v94
  rw [v93_eq]
  refine (host_scatterAdd_row_apply _ (ReadP.val_main_v92 (F := Ideal)) (ReadP.val_main_v47 (F := Ideal) x2)
    (ReadP.val_main_v91 (F := Ideal) x1 x2 x5) v k).trans ?_
  rw [ReadP.val_main_v92_apply, ReadP.val_main_cst_23_apply]
  refine congrArg (_ + ·) (Finset.sum_congr rfl fun e _ => ?_)
  exact msg2_at x1 x2 x5 e k

/-! ## The two projections as plain sums -/

theorem xw1_at (r : Fin 50000) (k : Fin 128) :
    ReadP.val_main_v7 (F := Ideal) x0 x3 (ix2 r k) = ∑ j : Fin 512, x0 (ix2 r j) * x3 (ix2 j k) := by
  rw [ReadP.val_main_v7_apply]
  refine Finset.sum_congr rfl fun j _ => ?_
  have el : ReadP.lidx_main_v7 (ix2 r k) j = ix2 r j := funext fun a => by match a with | ⟨0, _⟩ => rfl | ⟨1, _⟩ => rfl
  have er : ReadP.ridx_main_v7 (ix2 r k) j = ix2 j k := funext fun a => by match a with | ⟨0, _⟩ => rfl | ⟨1, _⟩ => rfl
  rw [el, er]

theorem xw2_at (r : Fin 50000) (k : Fin 128) :
    ReadP.val_main_v53 (F := Ideal) x1 x5 (ix2 r k) = ∑ j : Fin 256, x1 (ix2 r j) * x5 (ix2 j k) := by
  rw [ReadP.val_main_v53_apply]
  refine Finset.sum_congr rfl fun j _ => ?_
  have el : ReadP.lidx_main_v53 (ix2 r k) j = ix2 r j := funext fun a => by match a with | ⟨0, _⟩ => rfl | ⟨1, _⟩ => rfl
  have er : ReadP.ridx_main_v53 (ix2 r k) j = ix2 j k := funext fun a => by match a with | ⟨0, _⟩ => rfl | ⟨1, _⟩ => rfl
  rw [el, er]

end Cert.ReferenceIdeal.RefAgg

end
-- ==== Proof.KernelRun.lean ====
/-
  The idealized kernel's run, with its result named.

  The program is two pipelined regions among stretches of host operations.  The generated frame certificate
  already folds the buffer contents through every segment: `W6 m ρ c` is what each of core `c`'s buffers holds
  when @main returns.  Here the same launch is read once more, keeping the RESULT buffer in the post beside the
  seven argument arrays: after every weakly fair execution the result array is `W6 m ρ c` at the result's
  reference, and the arguments are as launched.
-/
import proofs.«130880_j36335423324414_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer then holds the last
    boundary's contents `W6` at its reference, and each argument array is as launched. -/
theorem run_result : θ_run defs (onTc (τ := τ) (main (F := F))) ⟨m, fun _ => 0, ρ⟩ (fun r => ∀ c : Dev nD,
      r.2.mem ((c.tc : Thread nD τ).loc main_v34) = W6 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v34 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.RunValue

end
-- ==== Proof.KernelHost.lean ====
/-
  The kernel program's host side, read off the run's fold of buffer contents.

  The program runs host operations, a first pipelined region, more host operations, and a second region. This module
  says what each buffer a region reads holds when the region is entered, as a function of the launch arguments:
    * the source and destination lists (the edge list's two rows, each followed by one self-loop per node);
    * the per-node factor where(deg > 0, rsqrt deg, 0), deg the in-degree counted by a scatter-add of ones, and its column;
    * the two weight matrices narrowed to sixteen bits, and the arguments no operation writes;
    * the first region's output, gathered at the (wrapped) sources and summed at the (raw) destinations.
  Each stretch of host operations is read once from arbitrary contents X; the boundary contents follow by chaining.
-/
import proofs.«130880_j36335423324414_2_alg».proof.Proof.Gen.KernelIdeal.Frame
import Idealize.ShloMosaic.Lib.StableHlo.Run
import Idealize.ShloMosaic.Lib.ValueIdx

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

/-- A stretch leaves alone every buffer none of its operations writes. -/
local macro "not_written" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## The host operations' values, as functions of the edge list -/

/-- The source list followed by one self-loop per node. -/
def hSrc (x2 : (⟨S2x800000, .i32⟩ : BufTy).Contents (Elt Ideal)) : (⟨S850000, .i32⟩ : BufTy).Contents (Elt Ideal) :=
  concatenate S850000 0 [⟨S800000, shapeCast _ (extractStridedSlice S1x800000 ![0, 0] x2 slices_S2x800000_S1x800000_0_0) shapeCasts_S1x800000_S800000⟩, ⟨S50000, iotaInDim S50000 32 0⟩] concatenates_S800000_S50000_S850000_d0

/-- The destination list followed by one self-loop per node. -/
def hDst (x2 : (⟨S2x800000, .i32⟩ : BufTy).Contents (Elt Ideal)) : (⟨S850000, .i32⟩ : BufTy).Contents (Elt Ideal) :=
  concatenate S850000 0 [⟨S800000, shapeCast _ (extractStridedSlice S1x800000 ![1, 0] x2 slices_S2x800000_S1x800000_1_0) shapeCasts_S1x800000_S800000⟩, ⟨S50000, iotaInDim S50000 32 0⟩] concatenates_S800000_S50000_S850000_d0

/-- An index list with its negative entries wrapped by the node count, as a column. -/
def hWrapCol (i : (⟨S850000, .i32⟩ : BufTy).Contents (Elt Ideal)) : (⟨S850000x1, .i32⟩ : BufTy).Contents (Elt Ideal) :=
  broadcastInDim S850000x1 ![0] bcast_S850000_S850000x1_0
    (select (cmpi .slt i (broadcastInDim S850000 ![] bcast_S_S850000 (constantI S_ 32 0#32)))
      (addi i (broadcastInDim S850000 ![] bcast_S_S850000 (constantI S_ 32 50000#32))) i)

/-- The in-degree of every node: ones scattered at the wrapped destinations. -/
def hDeg (x2 : (⟨S2x800000, .i32⟩ : BufTy).Contents (Elt Ideal)) : (⟨S50000, .f32⟩ : BufTy).Contents (Elt Ideal) :=
  Host.scatterAdd scatter_S50000_S850000x1_S850000_n_0_0_1 (broadcastInDim S50000 ![] bcast_S_S50000 (constant (F := Ideal) S_ .f32 0x00000000#32))
    (hWrapCol (hDst x2)) (broadcastInDim S850000 ![] bcast_S_S850000 (constant (F := Ideal) S_ .f32 0x3F800000#32))

/-- The per-node factor where(deg > 0, rsqrt deg, 0). -/
def hDinv (x2 : (⟨S2x800000, .i32⟩ : BufTy).Contents (Elt Ideal)) : (⟨S50000, .f32⟩ : BufTy).Contents (Elt Ideal) :=
  select (cmpf .ogt (hDeg x2) (broadcastInDim S50000 ![] bcast_S_S50000 (constant (F := Ideal) S_ .f32 0x00000000#32)))
    (Host.rsqrt (F := Ideal) (φ := .f32) (hDeg x2)) (broadcastInDim S50000 ![] bcast_S_S50000 (constant (F := Ideal) S_ .f32 0x00000000#32))

/-- Gather the rows of y at the wrapped sources, then add them up at the raw destinations. -/
def hAggregate (x2 : (⟨S2x800000, .i32⟩ : BufTy).Contents (Elt Ideal)) (y : (⟨S50000x256, .f32⟩ : BufTy).Contents (Elt Ideal)) :
    (⟨S50000x256, .f32⟩ : BufTy).Contents (Elt Ideal) :=
  Host.scatterAdd (F := Ideal) scatter_S50000x256_S850000x1_S850000x256_1_0_0_1
    (broadcastInDim S50000x256 ![] bcast_S_S50000x256 (constant (F := Ideal) S_ .f32 0x00000000#32))
    (broadcastInDim S850000x1 ![0] bcast_S850000_S850000x1_0 (hDst x2))
    (Host.gather gather_S50000x256_S850000x1_S850000x256_1_0_n_n_0_1_1256 y (hWrapCol (hSrc x2)))

/-! ## One stretch of host operations at a time, from any contents X -/

section Stretch
variable (X : Valuation τ sig (Elt Ideal))

theorem s0_v3 :
    (StableHlo.after hostOps0 X (Proc.devRef .tc main_v3) : S850000.Idx → BitVec 32)
      = hSrc (X (Proc.devRef .tc main_arg2) : S2x800000.Idx → BitVec 32) := by
  after_results <;> rfl
theorem s0_v6 :
    (StableHlo.after hostOps0 X (Proc.devRef .tc main_v6) : S850000.Idx → BitVec 32)
      = hDst (X (Proc.devRef .tc main_arg2) : S2x800000.Idx → BitVec 32) := by
  after_results <;> rfl
theorem s0_v17 :
    (StableHlo.after hostOps0 X (Proc.devRef .tc main_v17) : S50000.Idx → BitVec 1)
      = cmpf .ogt (hDeg (X (Proc.devRef .tc main_arg2) : S2x800000.Idx → BitVec 32))
          (broadcastInDim S50000 ![] bcast_S_S50000 (constant (F := Ideal) S_ .f32 0x00000000#32)) := by
  after_results <;> rfl
theorem s0_v18 :
    (StableHlo.after hostOps0 X (Proc.devRef .tc main_v18) : S50000.Idx → EReal)
      = (Host.rsqrt (F := Ideal) (φ := .f32) (hDeg (X (Proc.devRef .tc main_arg2) : S2x800000.Idx → BitVec 32)) : (⟨S50000, .f32⟩ : BufTy).Contents (Elt Ideal)) := by
  after_results <;> rfl
theorem s0_cst3 :
    (StableHlo.after hostOps0 X (Proc.devRef .tc main_cst_3) : S_.Idx → EReal)
      = (constant (F := Ideal) S_ .f32 0x00000000#32 : (⟨S_, .f32⟩ : BufTy).Contents (Elt Ideal)) := by
  after_results <;> rfl
theorem s0_arg0 : StableHlo.after hostOps0 X (Proc.devRef .tc main_arg0) = X (Proc.devRef .tc main_arg0) := by not_written hostOps0
theorem s0_arg1 : StableHlo.after hostOps0 X (Proc.devRef .tc main_arg1) = X (Proc.devRef .tc main_arg1) := by not_written hostOps0
theorem s0_arg3 : StableHlo.after hostOps0 X (Proc.devRef .tc main_arg3) = X (Proc.devRef .tc main_arg3) := by not_written hostOps0
theorem s0_arg5 : StableHlo.after hostOps0 X (Proc.devRef .tc main_arg5) = X (Proc.devRef .tc main_arg5) := by not_written hostOps0

theorem s01_v19 :
    (StableHlo.after hostOps0_1 X (Proc.devRef .tc main_v19) : S50000.Idx → EReal)
      = (select (X (Proc.devRef .tc main_v17) : S50000.Idx → BitVec 1) (X (Proc.devRef .tc main_v18) : S50000.Idx → EReal)
          (broadcastInDim S50000 ![] bcast_S_S50000 (X (Proc.devRef .tc main_cst_3) : S_.Idx → EReal)) : (⟨S50000, .f32⟩ : BufTy).Contents (Elt Ideal)) := by
  after_results <;> rfl
theorem s01_v3 : StableHlo.after hostOps0_1 X (Proc.devRef .tc main_v3) = X (Proc.devRef .tc main_v3) := by not_written hostOps0_1
theorem s01_v6 : StableHlo.after hostOps0_1 X (Proc.devRef .tc main_v6) = X (Proc.devRef .tc main_v6) := by not_written hostOps0_1
theorem s01_arg0 : StableHlo.after hostOps0_1 X (Proc.devRef .tc main_arg0) = X (Proc.devRef .tc main_arg0) := by not_written hostOps0_1
theorem s01_arg1 : StableHlo.after hostOps0_1 X (Proc.devRef .tc main_arg1) = X (Proc.devRef .tc main_arg1) := by not_written hostOps0_1
theorem s01_arg3 : StableHlo.after hostOps0_1 X (Proc.devRef .tc main_arg3) = X (Proc.devRef .tc main_arg3) := by not_written hostOps0_1
theorem s01_arg5 : StableHlo.after hostOps0_1 X (Proc.devRef .tc main_arg5) = X (Proc.devRef .tc main_arg5) := by not_written hostOps0_1

theorem s02_v20 :
    (StableHlo.after hostOps0_2 X (Proc.devRef .tc main_v20) : S50000x1.Idx → EReal)
      = (broadcastInDim S50000x1 ![0] bcast_S50000_S50000x1_0 (X (Proc.devRef .tc main_v19) : S50000.Idx → EReal) : (⟨S50000x1, .f32⟩ : BufTy).Contents (Elt Ideal)) := by
  after_results <;> rfl
theorem s02_v21 :
    (StableHlo.after hostOps0_2 X (Proc.devRef .tc main_v21) : S512x128.Idx → EReal)
      = (truncf (F := Ideal) .bf16 (X (Proc.devRef .tc main_arg3) : S512x128.Idx → EReal) bitsLt_bf16_f32 : (⟨S512x128, .bf16⟩ : BufTy).Contents (Elt Ideal)) := by
  after_results <;> rfl
theorem s02_v22 :
    (StableHlo.after hostOps0_2 X (Proc.devRef .tc main_v22) : S256x128.Idx → EReal)
      = (truncf (F := Ideal) .bf16 (X (Proc.devRef .tc main_arg5) : S256x128.Idx → EReal) bitsLt_bf16_f32 : (⟨S256x128, .bf16⟩ : BufTy).Contents (Elt Ideal)) := by
  after_results <;> rfl
theorem s02_v3 : StableHlo.after hostOps0_2 X (Proc.devRef .tc main_v3) = X (Proc.devRef .tc main_v3) := by not_written hostOps0_2
theorem s02_v6 : StableHlo.after hostOps0_2 X (Proc.devRef .tc main_v6) = X (Proc.devRef .tc main_v6) := by not_written hostOps0_2
theorem s02_arg0 : StableHlo.after hostOps0_2 X (Proc.devRef .tc main_arg0) = X (Proc.devRef .tc main_arg0) := by not_written hostOps0_2
theorem s02_arg1 : StableHlo.after hostOps0_2 X (Proc.devRef .tc main_arg1) = X (Proc.devRef .tc main_arg1) := by not_written hostOps0_2

theorem s1_v33 :
    (StableHlo.after hostOps1 X (Proc.devRef .tc main_v33) : S50000x256.Idx → EReal)
      = (Host.scatterAdd (F := Ideal) scatter_S50000x256_S850000x1_S850000x256_1_0_0_1
          (broadcastInDim S50000x256 ![] bcast_S_S50000x256 (constant (F := Ideal) S_ .f32 0x00000000#32))
          (broadcastInDim S850000x1 ![0] bcast_S850000_S850000x1_0 (X (Proc.devRef .tc main_v6) : S850000.Idx → BitVec 32))
          (Host.gather gather_S50000x256_S850000x1_S850000x256_1_0_n_n_0_1_1256 (X (Proc.devRef .tc main_v23) : S50000x256.Idx → EReal)
            (hWrapCol (X (Proc.devRef .tc main_v3) : S850000.Idx → BitVec 32))) : (⟨S50000x256, .f32⟩ : BufTy).Contents (Elt Ideal)) := by
  after_results <;> rfl
theorem s1_v20 : StableHlo.after hostOps1 X (Proc.devRef .tc main_v20) = X (Proc.devRef .tc main_v20) := by not_written hostOps1

end Stretch

/-! ## The contents at the segment boundaries, from the launch memory -/

section Boundaries
variable (m : (ℓ : Loc nD τ sig) → Buf (Elt Ideal) ℓ) (ρ : Dev nD → PrngReg) (c : Dev nD)

/-! ### The two index lists: computed by the first stretch, written by nothing after it -/

theorem W1_v3 : (W1 m ρ c (Proc.devRef .tc main_v3) : S850000.Idx → BitVec 32) = hSrc (m ((c : Thread nD τ).loc main_arg2)) := s0_v3 (W0 m ρ c)
theorem W1_v6 : (W1 m ρ c (Proc.devRef .tc main_v6) : S850000.Idx → BitVec 32) = hDst (m ((c : Thread nD τ).loc main_arg2)) := s0_v6 (W0 m ρ c)
theorem W3_v3 : (W3 m ρ c (Proc.devRef .tc main_v3) : S850000.Idx → BitVec 32) = hSrc (m ((c : Thread nD τ).loc main_arg2)) :=
  (s02_v3 (W2 m ρ c)).trans ((s01_v3 (W1 m ρ c)).trans (W1_v3 m ρ c))
theorem W3_v6 : (W3 m ρ c (Proc.devRef .tc main_v6) : S850000.Idx → BitVec 32) = hDst (m ((c : Thread nD τ).loc main_arg2)) :=
  (s02_v6 (W2 m ρ c)).trans ((s01_v6 (W1 m ρ c)).trans (W1_v6 m ρ c))
theorem W4_v3 : (W4 m ρ c (Proc.devRef .tc main_v3) : S850000.Idx → BitVec 32) = hSrc (m ((c : Thread nD τ).loc main_arg2)) :=
  (W4_of_ne m ρ c main_v3 (by decide)).trans (W3_v3 m ρ c)
theorem W4_v6 : (W4 m ρ c (Proc.devRef .tc main_v6) : S850000.Idx → BitVec 32) = hDst (m ((c : Thread nD τ).loc main_arg2)) :=
  (W4_of_ne m ρ c main_v6 (by decide)).trans (W3_v6 m ρ c)

/-! ### The normalisation factor and its column -/

theorem W1_v17 : (W1 m ρ c (Proc.devRef .tc main_v17) : S50000.Idx → BitVec 1)
    = cmpf .ogt (hDeg (m ((c : Thread nD τ).loc main_arg2))) (broadcastInDim S50000 ![] bcast_S_S50000 (constant (F := Ideal) S_ .f32 0x00000000#32)) := s0_v17 (W0 m ρ c)
theorem W1_v18 : (W1 m ρ c (Proc.devRef .tc main_v18) : S50000.Idx → EReal)
    = (Host.rsqrt (F := Ideal) (φ := .f32) (hDeg (m ((c : Thread nD τ).loc main_arg2))) : (⟨S50000, .f32⟩ : BufTy).Contents (Elt Ideal)) := s0_v18 (W0 m ρ c)
theorem W1_cst3 : (W1 m ρ c (Proc.devRef .tc main_cst_3) : S_.Idx → EReal)
    = (constant (F := Ideal) S_ .f32 0x00000000#32 : (⟨S_, .f32⟩ : BufTy).Contents (Elt Ideal)) := s0_cst3 (W0 m ρ c)

theorem W2_v19 : (W2 m ρ c (Proc.devRef .tc main_v19) : S50000.Idx → EReal) = hDinv (m ((c : Thread nD τ).loc main_arg2)) := by
  refine (s01_v19 (W1 m ρ c)).trans ?_
  rw [W1_v17 m ρ c, W1_v18 m ρ c, W1_cst3 m ρ c]
  rfl

/-- At region 0's entry the column buffer holds the factor, one per row. -/
theorem W3_v20 : (W3 m ρ c (Proc.devRef .tc main_v20) : S50000x1.Idx → EReal)
    = (broadcastInDim S50000x1 ![0] bcast_S50000_S50000x1_0 (hDinv (m ((c : Thread nD τ).loc main_arg2))) : (⟨S50000x1, .f32⟩ : BufTy).Contents (Elt Ideal)) := by
  refine (s02_v20 (W2 m ρ c)).trans ?_
  rw [W2_v19 m ρ c]

/-- Region 0 reads the column through an input window and leaves it as it was. -/
theorem W4_v20 : W4 m ρ c (Proc.devRef .tc main_v20) = W3 m ρ c (Proc.devRef .tc main_v20) :=
  (W4_arr m ρ c 4).trans (((dat0 (V3 m ρ) c).arrAt_in 4 rfl _).trans (A_eq0 (V3 m ρ) c 4))

/-- No operation of the second stretch writes it. -/
theorem W5_v20 : W5 m ρ c (Proc.devRef .tc main_v20) = W3 m ρ c (Proc.devRef .tc main_v20) :=
  (s1_v20 (W4 m ρ c)).trans (W4_v20 m ρ c)

/-! ### The weights in sixteen bits, and the arguments as launched -/

theorem W3_v21 : (W3 m ρ c (Proc.devRef .tc main_v21) : S512x128.Idx → EReal)
    = (truncf (F := Ideal) .bf16 (m ((c : Thread nD τ).loc main_arg3) : S512x128.Idx → EReal) bitsLt_bf16_f32 : (⟨S512x128, .bf16⟩ : BufTy).Contents (Elt Ideal)) := by
  refine (s02_v21 (W2 m ρ c)).trans ?_
  rw [show W2 m ρ c (Proc.devRef .tc main_arg3) = m ((c : Thread nD τ).loc main_arg3) from
    (s01_arg3 (W1 m ρ c)).trans (s0_arg3 (W0 m ρ c))]
theorem W3_v22 : (W3 m ρ c (Proc.devRef .tc main_v22) : S256x128.Idx → EReal)
    = (truncf (F := Ideal) .bf16 (m ((c : Thread nD τ).loc main_arg5) : S256x128.Idx → EReal) bitsLt_bf16_f32 : (⟨S256x128, .bf16⟩ : BufTy).Contents (Elt Ideal)) := by
  refine (s02_v22 (W2 m ρ c)).trans ?_
  rw [show W2 m ρ c (Proc.devRef .tc main_arg5) = m ((c : Thread nD τ).loc main_arg5) from
    (s01_arg5 (W1 m ρ c)).trans (s0_arg5 (W0 m ρ c))]
theorem W3_arg0 : W3 m ρ c (Proc.devRef .tc main_arg0) = m ((c : Thread nD τ).loc main_arg0) :=
  (s02_arg0 (W2 m ρ c)).trans ((s01_arg0 (W1 m ρ c)).trans (s0_arg0 (W0 m ρ c)))
theorem W3_arg1 : W3 m ρ c (Proc.devRef .tc main_arg1) = m ((c : Thread nD τ).loc main_arg1) :=
  (s02_arg1 (W2 m ρ c)).trans ((s01_arg1 (W1 m ρ c)).trans (s0_arg1 (W0 m ρ c)))
/-- Region 1 reads the two bias vectors through input windows and leaves them as they were, and they are as launched. -/
theorem W5_arg4 : W5 m ρ c (Proc.devRef .tc main_arg4) = m ((c : Thread nD τ).loc main_arg4) :=
  ((W6_arr m ρ c 2).trans (((dat1 (V5 m ρ) c).arrAt_in 2 rfl _).trans (A_eq1 (V5 m ρ) c 2))).symm.trans (W6_main_arg4 m ρ c)
theorem W5_arg6 : W5 m ρ c (Proc.devRef .tc main_arg6) = m ((c : Thread nD τ).loc main_arg6) :=
  ((W6_arr m ρ c 3).trans (((dat1 (V5 m ρ) c).arrAt_in 3 rfl _).trans (A_eq1 (V5 m ρ) c 3))).symm.trans (W6_main_arg6 m ρ c)

/-! ### Region 0's output, and what the second stretch makes of it -/

theorem W4_v23 : W4 m ρ c (Proc.devRef .tc main_v23) = (dat0 (V3 m ρ) c).arrAt 5 cfg0.N := W4_arr m ρ c 5

/-- At region 1's entry the aggregated buffer is region 0's output gathered at the wrapped sources and summed at the
    raw destinations. -/
theorem W5_v33 : (W5 m ρ c (Proc.devRef .tc main_v33) : S50000x256.Idx → EReal)
    = hAggregate (m ((c : Thread nD τ).loc main_arg2)) (W4 m ρ c (Proc.devRef .tc main_v23) : S50000x256.Idx → EReal) := by
  refine (s1_v33 (W4 m ρ c)).trans ?_
  rw [W4_v6 m ρ c, W4_v3 m ρ c]
  rfl

end Boundaries

end Cert.KernelIdeal.HostValue

end
-- ==== Proof.Assemble.lean ====
/-
  The two programs compute one function.

  At node v and channel k both results are the log-softmax, along the 128 channels, of the row
      s k' = max (A1[v, k'] + b1[k']) 0 + max (A2[v, k'] + b2[k']) 0,
  where A1, A2 are the two modalities' normalised aggregates.  The reference forms A[v, k'] as the sum over the edges e
  arriving at v of (x W)[src e, k'] * (dinv[src e] * dinv[dst e]); the kernel scales the projection's rows by dinv before
  they are gathered and the aggregate's rows by dinv afterwards.  The factor dinv is a nonnegative real at every node
  whatever the inputs, so the second scaling distributes over the finite sum, and on an edge arriving at v the
  destination's factor is v's own: the two aggregates agree on the extended reals, with no finiteness assumption on the
  float inputs.  A change of float format is the identity at the ideal values, a matrix product is the plain sum over
  the contracted axis on both sides, and the two maxima, the exponentials, the lane sum and the logarithm are the same
  operations of the same row.
-/
import proofs.«130880_j36335423324414_2_alg».proof.Proof.Region0Value
import proofs.«130880_j36335423324414_2_alg».proof.Proof.Region1Value
import proofs.«130880_j36335423324414_2_alg».proof.Proof.RefRead
import proofs.«130880_j36335423324414_2_alg».proof.Proof.RefAgg
import proofs.«130880_j36335423324414_2_alg».proof.Proof.BridgeAgg
import proofs.«130880_j36335423324414_2_alg».proof.Proof.KernelRun
import proofs.«130880_j36335423324414_2_alg».proof.Proof.KernelHost

set_option maxRecDepth 16384

noncomputable section

namespace Cert.Proof.Value

open Idealize.ShloMosaic Idealize.ShloMosaic.TcCoe Idealize.ShloMosaic.ValueIdx Idealize.ShloMosaic.RowOps

section Core
open Cert.ReferenceIdeal

variable (x0 : (⟨S50000x512, .f32⟩ : BufTy).Contents (Elt Ideal)) (x1 : (⟨S50000x256, .f32⟩ : BufTy).Contents (Elt Ideal))
  (x2 : (⟨S2x800000, .i32⟩ : BufTy).Contents (Elt Ideal)) (x3 : (⟨S512x128, .f32⟩ : BufTy).Contents (Elt Ideal))
  (x4 : (⟨S128, .f32⟩ : BufTy).Contents (Elt Ideal)) (x5 : (⟨S256x128, .f32⟩ : BufTy).Contents (Elt Ideal))
  (x6 : (⟨S128, .f32⟩ : BufTy).Contents (Elt Ideal))

/-- THE KERNEL'S FUSED ROW IS THE REFERENCE'S RESULT, index by index: `S` the scatter-add of the gathered rows of the
    pre-scaled projections, `d` the per-node factor as a column. -/
theorem fused_eq_ref
    (wfS : ScatterDims.WF ⟨2, ![50000, 256]⟩ ⟨2, ![850000, 1]⟩ ⟨2, ![850000, 256]⟩ [1] [0] [0] 1)
    (wfG : GatherDims.WF ⟨2, ![50000, 256]⟩ ⟨2, ![850000, 1]⟩ ⟨2, ![850000, 256]⟩ [1] [0] [] [0] [] 1 ![1, 256])
    (z256 : FVec Ideal ⟨2, ![50000, 256]⟩ .f32) (hz : ∀ i, z256 i = Ideal.ofBits .f32 0x00000000#32)
    (w1 : FVec Ideal ⟨2, ![512, 128]⟩ .bf16) (w2 : FVec Ideal ⟨2, ![256, 128]⟩ .bf16)
    (hw1 : ∀ i, w1 i = x3 i) (hw2 : ∀ i, w2 i = x5 i)
    (d : FVec Ideal ⟨2, ![50000, 1]⟩ .f32)
    (hd : ∀ r : Fin 50000, d (ix2 r (0 : Fin 1)) = ReadP.val_main_v20 (F := Ideal) x2 (ix1 r))
    (v : Fin 50000) (k : Fin 128) :
    Cert.KernelIdeal.Region1.fusedAt
        (Host.scatterAdd (F := Ideal) (rowScatterDims 50000 850000 256 wfS) z256 (ReadP.val_main_v47 (F := Ideal) x2)
          (Host.gather (rowGatherDims 50000 850000 256 wfG) (Cert.KernelIdeal.Region0.scaledProj x0 x1 w1 w2 d) (ReadP.val_main_v41 (F := Ideal) x2)))
        d x4 x6 v k
      = ReadP.val_main_v100 (F := Ideal) x0 x1 x2 x3 x4 x5 x6 (ix2 v k) := by
  rw [RefValue.val_main_v100_at]
  have hlo : ∀ (r : Fin 50000) (q : Fin 128),
      Cert.KernelIdeal.Region0.scaledProj x0 x1 w1 w2 d (ix2 r (⟨q.val, by have := q.isLt; omega⟩ : Fin 256))
        = ReadP.val_main_v7 (F := Ideal) x0 x3 (ix2 r q) * ReadP.val_main_v20 (F := Ideal) x2 (ix1 r) := fun r q => by
    rw [Cert.KernelIdeal.Region0.scaledProj_lo x0 x1 w1 w2 d _ r q rfl rfl, RefAgg.xw1_at, hd r]
    simp only [hw1]
  have hhi : ∀ (r : Fin 50000) (q : Fin 128),
      Cert.KernelIdeal.Region0.scaledProj x0 x1 w1 w2 d (ix2 r (⟨128 + q.val, by have := q.isLt; omega⟩ : Fin 256))
        = ReadP.val_main_v53 (F := Ideal) x1 x5 (ix2 r q) * ReadP.val_main_v20 (F := Ideal) x2 (ix1 r) := fun r q => by
    rw [Cert.KernelIdeal.Region0.scaledProj_hi x0 x1 w1 w2 d _ r q rfl rfl, RefAgg.xw2_at, hd r]
    simp only [hw2]
  have hrow : Cert.KernelIdeal.Region1.act
      (fun q : Fin 128 => Host.scatterAdd (F := Ideal) (rowScatterDims 50000 850000 256 wfS) z256 (ReadP.val_main_v47 (F := Ideal) x2)
          (Host.gather (rowGatherDims 50000 850000 256 wfG) (Cert.KernelIdeal.Region0.scaledProj x0 x1 w1 w2 d) (ReadP.val_main_v41 (F := Ideal) x2))
          (ix2 v (⟨q.val, by have := q.isLt; omega⟩ : Fin 256)))
      (fun q : Fin 128 => Host.scatterAdd (F := Ideal) (rowScatterDims 50000 850000 256 wfS) z256 (ReadP.val_main_v47 (F := Ideal) x2)
          (Host.gather (rowGatherDims 50000 850000 256 wfG) (Cert.KernelIdeal.Region0.scaledProj x0 x1 w1 w2 d) (ReadP.val_main_v41 (F := Ideal) x2))
          (ix2 v (⟨128 + q.val, by have := q.isLt; omega⟩ : Fin 256)))
      (d (ix2 v (0 : Fin 1))) (fun q => x4 (ix1 q)) (fun q => x6 (ix1 q))
      = fun q => RefValue.act x0 x1 x2 x3 x4 x5 x6 v q := by
    funext q
    unfold Cert.KernelIdeal.Region1.act RefValue.act
    rw [hd v, Ideal.ofBits_zero_f32,
      Cert.Bridge.agg_lo wfS wfG _ z256 (ReadP.val_main_v7 (F := Ideal) x0 x3) (ReadP.val_main_v20 (F := Ideal) x2)
        (ReadP.val_main_v41 (F := Ideal) x2) (ReadP.val_main_v33 (F := Ideal) x2) (ReadP.val_main_v47 (F := Ideal) x2) hz hlo
        (RefValue.val_main_v20_nonneg x2) (RefValue.dst_wrapped_eq_of_raw x2) v q,
      Cert.Bridge.agg_hi wfS wfG _ z256 (ReadP.val_main_v53 (F := Ideal) x1 x5) (ReadP.val_main_v20 (F := Ideal) x2)
        (ReadP.val_main_v41 (F := Ideal) x2) (ReadP.val_main_v33 (F := Ideal) x2) (ReadP.val_main_v47 (F := Ideal) x2) hz hhi
        (RefValue.val_main_v20_nonneg x2) (RefValue.dst_wrapped_eq_of_raw x2) v q,
      ← RefAgg.agg1_at, ← RefAgg.agg2_at]
  unfold Cert.KernelIdeal.Region1.fusedAt Cert.KernelIdeal.Region1.lsm
  rw [hrow, RefValue.ofBits_neg_inf_f32]
  rfl

end Core

/-! ## The kernel's result buffer, from the launch memory -/

section Kernel
open Cert.KernelIdeal Cert.KernelIdeal.Gen Idealize.SL.Sem

variable (m : (ℓ : Loc nD τ sig) → Buf (Elt Ideal) ℓ) (ρ : Dev nD → PrngReg) (c : Dev nD)

/-- The kernel's host operations are the reference's: the raw destination column, the wrapped source column and the
    per-node factor are the same operations of the same argument. -/
theorem dstCol_eq (x2 : (⟨S2x800000, .i32⟩ : BufTy).Contents (Elt Ideal)) :
    (broadcastInDim S850000x1 ![0] bcast_S850000_S850000x1_0 (HostValue.hDst x2) : (⟨S850000x1, .i32⟩ : BufTy).Contents (Elt Ideal))
      = Cert.ReferenceIdeal.ReadP.val_main_v47 (F := Ideal) x2 := rfl
theorem srcCol_eq (x2 : (⟨S2x800000, .i32⟩ : BufTy).Contents (Elt Ideal)) :
    HostValue.hWrapCol (HostValue.hSrc x2) = Cert.ReferenceIdeal.ReadP.val_main_v41 (F := Ideal) x2 := rfl
theorem dinv_eq (x2 : (⟨S2x800000, .i32⟩ : BufTy).Contents (Elt Ideal)) :
    HostValue.hDinv x2 = Cert.ReferenceIdeal.ReadP.val_main_v20 (F := Ideal) x2 := rfl

/-- The column of the per-node factor read at row `r`. -/
theorem dcol_at (D : (⟨S50000, .f32⟩ : BufTy).Contents (Elt Ideal)) (r : Fin 50000) :
    (broadcastInDim S50000x1 ![0] bcast_S50000_S50000x1_0 D : (⟨S50000x1, .f32⟩ : BufTy).Contents (Elt Ideal)) (ix2 r (0 : Fin 1)) = D (ix1 r) :=
  broadcastInDim_apply _ bcast_S50000_S50000x1_0 D (ix2 r (0 : Fin 1)) (ix1 r) (fun a => match a with
    | ⟨0, _⟩ => by show r.val = if (50000 : Nat) = 1 then 0 else r.val; rw [if_neg (by decide)])

/-- The splat of the zero word reads the zero word's value everywhere. -/
theorem zeros_at (i : S50000x256.Idx) :
    (broadcastInDim S50000x256 ![] bcast_S_S50000x256 (constant (F := Ideal) S_ .f32 0x00000000#32) : (⟨S50000x256, .f32⟩ : BufTy).Contents (Elt Ideal)) i
      = Ideal.ofBits .f32 0x00000000#32 :=
  broadcastInDim_apply _ bcast_S_S50000x256 (constant (F := Ideal) S_ .f32 0x00000000#32) i (fun a => a.elim0) (fun a => a.elim0)

/-- THE KERNEL'S RESULT: when @main returns, the result buffer holds the reference's read-back term of the launch
    arguments. -/
theorem kernel_value :
    (W6 m ρ c (Proc.devRef .tc main_v34) : S50000x128.Idx → EReal)
      = Cert.ReferenceIdeal.ReadP.val_main_v100 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  have e34 : (W6 m ρ c (Proc.devRef .tc main_v34) : S50000x128.Idx → EReal)
      = Region1.fused (W5 m ρ c (Proc.devRef .tc main_v33)) (W5 m ρ c (Proc.devRef .tc main_v20))
          (W5 m ρ c (Proc.devRef .tc main_arg4)) (W5 m ρ c (Proc.devRef .tc main_arg6)) :=
    (W6_arr m ρ c 4).trans (Region1.final1 (V5 m ρ) c)
  have e23 : (W4 m ρ c (Proc.devRef .tc main_v23) : S50000x256.Idx → EReal)
      = Region0.scaledProj (W3 m ρ c (Proc.devRef .tc main_arg0)) (W3 m ρ c (Proc.devRef .tc main_arg1))
          (W3 m ρ c (Proc.devRef .tc main_v21)) (W3 m ρ c (Proc.devRef .tc main_v22)) (W3 m ρ c (Proc.devRef .tc main_v20)) :=
    (HostValue.W4_v23 m ρ c).trans (Region0.final0 (V3 m ρ) c)
  rw [e34, HostValue.W5_v33 m ρ c, e23, HostValue.W5_v20 m ρ c, HostValue.W3_v20 m ρ c, HostValue.W3_v21 m ρ c,
    HostValue.W3_v22 m ρ c, HostValue.W3_arg0 m ρ c, HostValue.W3_arg1 m ρ c, HostValue.W5_arg4 m ρ c, HostValue.W5_arg6 m ρ c]
  funext i
  obtain ⟨v, k, rfl⟩ : ∃ (v : Fin 50000) (k : Fin 128), i = ix2 v k := ⟨i 0, i 1, eq_ix2 i⟩
  exact fused_eq_ref (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) _ _ _ zeros_at _ _ (fun _ => rfl) (fun _ => rfl) _
    (fun r => (dcol_at _ r).trans (congrFun (dinv_eq _) (ix1 r))) v k

end Kernel

end Cert.Proof.Value

end
-- ==== Proof.RefFold.lean ====
/-
  The reference's line of 149 host operations, read back: the buffer of the result holds the result's term of the
  seven argument arrays. The line is read in two stretches. The first 134 operations leave in one buffer the sum of
  the two rectified halves (every operation's result read at its own buffer, every other buffer left as it was). The
  last 15 operations — the logarithm of the softmax along the lanes — are read from ANY contents that hold that sum
  in that buffer; their operands pass through typed references, and moving contents to a typed reference's buffer
  and back is the identity.
-/
import proofs.«130880_j36335423324414_2_alg».proof.Proof.RefReadP

noncomputable section

namespace Cert.ReferenceIdeal.RefFold

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- A concatenation of TWO parts with the parts' contents as plain arguments: the proof that the shapes fit does not
    mention the contents, so that a rewrite can reach them (under `concatenate` itself that proof's statement names
    the list of parts, and no rewrite goes below it). -/
def concat2 {α : Type} (t : Shape) (ax : Fin t.rank) (s₁ : Shape) (a : s₁.Idx → α) (s₂ : Shape) (b : s₂.Idx → α)
    (h : Shape.Concatenates [s₁, s₂] t ax) : t.Idx → α :=
  concatenate t ax [⟨s₁, a⟩, ⟨s₂, b⟩] h

/-- A two-part concatenation is `concat2` of its parts. -/
theorem concat2_intro {α : Type} (t : Shape) (ax : Fin t.rank) (s₁ : Shape) (a : s₁.Idx → α) (s₂ : Shape) (b : s₂.Idx → α)
    (h : Shape.Concatenates [s₁, s₂] t ax) :
    concatenate t ax [⟨s₁, a⟩, ⟨s₂, b⟩] h = concat2 t ax s₁ a s₂ b h := rfl

/-- The contents after two lines of operations run one after the other: the second line from the first's contents. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- Contents moved to a typed reference's buffer and back are the contents. -/
theorem ofBuf_toBuf {Val : EltTy → Type} {T : BufTy} (x : TRef sig T) (v : T.Contents Val) : x.ofBuf (x.toBuf v) = v := by
  simp only [TRef.ofBuf, TRef.toBuf, cast_cast, cast_eq]

/-- At the literal reference `main_v99`, whose type is the value's, reading the buffer's contents at the value's type
    is the identity. -/
theorem ofBuf_main_v99 {Val : EltTy → Type} (p q s) (v : (⟨S50000x128, .f32⟩ : BufTy).Contents Val) :
    (TRef.of (T := ⟨S50000x128, .f32⟩) main_v99 p q s).ofBuf v = v := rfl

/-- At the literal reference `main_v100`, whose type is the value's, writing contents of the value's type to the buffer
    is the identity. -/
theorem toBuf_main_v100 {Val : EltTy → Type} (p q s) (v : (⟨S50000x128, .f32⟩ : BufTy).Contents Val) :
    (TRef.of (T := ⟨S50000x128, .f32⟩) main_v100 p q s).toBuf v = v := rfl

set_option maxRecDepth 200000 in
set_option maxHeartbeats 0 in
/-- The first 134 operations leave, in the buffer of the sum of the two rectified halves, that sum's term of the
    arguments: each operation's result is read at its own buffer as its function of its operands' contents, and at any
    other buffer as what was there; the term left is the chain of the reference's values, definition by definition. -/
theorem fold_v99 (m : (ℓ : Loc nD τ sig) → Buf (Elt F) ℓ) (c : Dev nD) :
    after (List.take 134 (ValueP.ops (F := F))) (launchContents m c) (Proc.devRef .tc main_v99)
      = ReadP.val_main_v99 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  simp (disch := decide) only [List.take_succ_cons, List.take_zero, after_cons, after_nil, concat2_intro,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  rfl

set_option maxRecDepth 200000 in
set_option maxHeartbeats 0 in
/-- The last 15 operations (the logarithm of the softmax along the lanes), from ANY contents `W` holding the sum of the
    two rectified halves in its buffer, leave the result's term in the result's buffer. -/
theorem fold_tail (m : (ℓ : Loc nD τ sig) → Buf (Elt F) ℓ) (c : Dev nD) (W : Valuation τ sig (Elt F))
    (h99 : W (Proc.devRef .tc main_v99) = ReadP.val_main_v99 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) :
    after (List.drop 134 (ValueP.ops (F := F))) W (Proc.devRef .tc main_v100)
      = ReadP.val_main_v100 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  simp (disch := decide) only [List.drop_succ_cons, List.drop_zero, h99, ofBuf_toBuf, ofBuf_main_v99, toBuf_main_v100,
    after_cons, after_nil, concat2_intro,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  simp only [ReadP.val_main_v100, ReadP.val_main_call4_v10, ReadP.val_main_call4_v9, ReadP.val_main_call4_v8, ReadP.val_main_call4_v7, ReadP.val_main_call4_v6, ReadP.val_main_call4_v5, ReadP.val_main_call4_v4, ReadP.val_main_call4_v3, ReadP.val_main_call4_v2, ReadP.val_main_call4_v1, ReadP.val_main_call4_v0, ReadP.val_main_call4_cst, ReadP.val_main_call4_cst_0, ReadP.val_main_call4_cst_1]

/-- THE LINE READ BACK: after the reference's 149 operations the result's buffer holds the reference's term
    `ReadP.val_main_v100` of the seven argument arrays at launch. -/
theorem fold_eq (m : (ℓ : Loc nD τ sig) → Buf (Elt F) ℓ) (c : Dev nD) :
    after (ValueP.ops (F := F)) (launchContents m c) (Proc.devRef .tc main_v100)
      = ReadP.val_main_v100 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  have e : after (ValueP.ops (F := F)) (launchContents m c)
      = after (List.drop 134 (ValueP.ops (F := F))) (after (List.take 134 (ValueP.ops (F := F))) (launchContents m c)) := by
    rw [← after_append', List.take_append_drop]
  rw [e]
  exact fold_tail m c _ (fold_v99 m c)

end Cert.ReferenceIdeal.RefFold

end
-- ==== Proof.lean ====
/-
  A two-modality graph convolution followed by a log-softmax, as a pipelined kernel and as its plain reference: the two
  agree on the extended reals.

  For each of two feature arrays x (50000 nodes) and weight matrices W the layer forms x W, gathers its rows along
  850000 edges (800000 given ones and one self-loop per node), weights edge e by dinv[src e] * dinv[dst e] with
  dinv = where(deg > 0, deg^(-1/2), 0) the inverse square root of the in-degree, sums the messages at each destination
  node, adds a bias and applies max(., 0); the two layers are added and the result is the row-wise log-softmax over the
  128 channels.  The kernel computes both projections in one pipelined region (25 blocks of 2000 rows), already scaled
  by dinv on the source side, gathers and sums the 256-wide rows once on the host, and in a second pipelined region
  scales by dinv on the destination side, adds the biases, rectifies, adds and takes the log-softmax.

  The proof: each region's 25 blocks tile its output, so each output array is one function of the arrays the region
  reads (Region0Value, Region1Value, over the generated frame certificate; KernelRun keeps the result buffer in the
  run's post, KernelHost reads the host operations around the regions); the reference's run is the fold of its
  operations, read stage by stage (RefFold, RefRead, RefAgg); and the two functions are equal index by index because
  dinv is a nonnegative real at every node, so multiplying a finite sum of extended reals by it distributes
  (LibRowGatherScatter, BridgeAgg, Assemble).  The idealization rewrote nothing, so `preserves` is trivial, and no
  finiteness of the float inputs is used.
-/
import proofs.«130880_j36335423324414_2_alg».proof.Defs
import proofs.«130880_j36335423324414_2_alg».proof.Proof.Gen.Kernel
import proofs.«130880_j36335423324414_2_alg».proof.Proof.Gen.Kernel.Skeleton
import proofs.«130880_j36335423324414_2_alg».proof.Proof.Gen.Kernel.Launch
import proofs.«130880_j36335423324414_2_alg».proof.Proof.Gen.Kernel.Points
import proofs.«130880_j36335423324414_2_alg».proof.Proof.Gen.Kernel.Frame
import proofs.«130880_j36335423324414_2_alg».proof.Proof.Gen.KernelIdeal
import proofs.«130880_j36335423324414_2_alg».proof.Proof.Gen.KernelIdeal.Skeleton
import proofs.«130880_j36335423324414_2_alg».proof.Proof.Gen.KernelIdeal.Launch
import proofs.«130880_j36335423324414_2_alg».proof.Proof.Gen.KernelIdeal.Points
import proofs.«130880_j36335423324414_2_alg».proof.Proof.Gen.KernelIdeal.Frame
import proofs.«130880_j36335423324414_2_alg».proof.Proof.Gen.ReferenceIdeal
import proofs.«130880_j36335423324414_2_alg».proof.Proof.Gen.Pre_finite_inputs
import proofs.«130880_j36335423324414_2_alg».proof.Proof.Assemble
import proofs.«130880_j36335423324414_2_alg».proof.Proof.RefFold
import Idealize.ShloMosaic.Adequacy
import Idealize.ShloMosaic.Init

noncomputable section

namespace Cert.Proof

open Idealize.ShloMosaic Idealize.ShloMosaic.TcCoe Idealize.SL.Sem

/-- The word-level kernel runs, nothing faulting, and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both idealized programs run, and the kernel's result buffer holds what the
    reference's does: the reference's read-back term of the arguments. -/
theorem algebraic : Cert.algebraic_KernelIdeal_ReferenceIdeal := by
  intro m ρ m' ρ' _ hagree
  refine ⟨fun c => Cert.KernelIdeal.Gen.W6 m ρ c (Proc.devRef .tc Cert.KernelIdeal.main_v34),
    Cert.KernelIdeal.RunValue.run_result m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefFold.fold_eq m' c, (hagree c).1, (hagree c).2.1, (hagree c).2.2.1, (hagree c).2.2.2.1,
    (hagree c).2.2.2.2.1, (hagree c).2.2.2.2.2.1, (hagree c).2.2.2.2.2.2]
  exact (Cert.Proof.Value.kernel_value m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
